-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2048x2048 : Shape := ⟨2, ![2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S32x2048 .f32) (main_arg1 : FVec F S2048x2048 .f32) (main_arg2 : FVec F S2048x2048 .f32) (main_arg3 : FVec F S2048x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S32x2048 : Shape := ⟨2, ![32, 2048]⟩
abbrev S2048x2048 : Shape := ⟨2, ![2048, 2048]⟩
abbrev S256x512 : Shape := ⟨2, ![256, 512]⟩
abbrev S64x2048 : Shape := ⟨2, ![64, 2048]⟩
abbrev S32x256 : Shape := ⟨2, ![32, 256]⟩
abbrev S32x512 : Shape := ⟨2, ![32, 512]⟩
abbrev S32x64 : Shape := ⟨2, ![32, 64]⟩

abbrev nBuf : Space → Nat
  | .hbm => 5
  | .vmem => 50
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S32x2048, .f32⟩
  | .local _ .vmem, ⟨0, _⟩ => ⟨S32x2048, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S64x2048, .f32⟩
  | .local _ .vmem, ⟨34, _⟩ => ⟨S64x2048, .f32⟩
  | .local _ .vmem, ⟨35, _⟩ => ⟨S64x2048, .f32⟩
  | .local _ .vmem, ⟨36, _⟩ => ⟨S64x2048, .f32⟩
  | .local _ .vmem, ⟨37, _⟩ => ⟨S64x2048, .f32⟩
  | .local _ .vmem, ⟨38, _⟩ => ⟨S64x2048, .f32⟩
  | .local _ .vmem, ⟨39, _⟩ => ⟨S64x2048, .f32⟩
  | .local _ .vmem, ⟨40, _⟩ => ⟨S64x2048, .f32⟩
  | .local _ .vmem, ⟨41, _⟩ => ⟨S64x2048, .f32⟩
  | .local _ .vmem, ⟨42, _⟩ => ⟨S64x2048, .f32⟩
  | .local _ .vmem, ⟨43, _⟩ => ⟨S64x2048, .f32⟩
  | .local _ .vmem, ⟨44, _⟩ => ⟨S64x2048, .f32⟩
  | .local _ .vmem, ⟨45, _⟩ => ⟨S64x2048, .f32⟩
  | .local _ .vmem, ⟨46, _⟩ => ⟨S64x2048, .f32⟩
  | .local _ .vmem, ⟨47, _⟩ => ⟨S64x2048, .f32⟩
  | .local _ .vmem, ⟨48, _⟩ => ⟨S64x2048, .f32⟩
  | .local _ .vmem, ⟨49, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_72 : BitVec 32 := 0#32
  let v92 : BitVec 1 := Scalar.cmpi .ne v91 c0_i32_72
  v92

def k0_cond2 (i : grid0.Coords) : BitVec 1 :=
  let arg0 : BitVec 32 := BitVec.ofNat 32 (i 0).val
  let c0_i32_73 : BitVec 32 := 0#32
  let v93 : BitVec 1 := Scalar.cmpi .sgt arg0 c0_i32_73
  let v94 : BitVec 32 := Scalar.extui v93
  let c0_i32_74 : BitVec 32 := 0#32
  let v95 : BitVec 1 := Scalar.cmpi .ne v94 c0_i32_74
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_4 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_5 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_6 (i : grid0.Coords) : Fin 2 → Nat :=
  let arg0 : BitVec 32 := BitVec.ofNat 32 (i 0).val
  let c5_i32 : BitVec 32 := 5#32
  let c0_i32 : BitVec 32 := 0#32
  ![c5_i32.toNat, arg0.toNat]

def cc0_transform_7 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_8 (i : grid0.Coords) : Fin 2 → Nat :=
  let arg0 : BitVec 32 := BitVec.ofNat 32 (i 0).val
  let c7_i32 : BitVec 32 := 7#32
  let c0_i32 : BitVec 32 := 0#32
  ![c7_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_11 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_12 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_13 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_14 (i : grid0.Coords) : Fin 2 → Nat :=
  let arg0 : BitVec 32 := BitVec.ofNat 32 (i 0).val
  let c5_i32 : BitVec 32 := 5#32
  let c0_i32 : BitVec 32 := 0#32
  ![c5_i32.toNat, arg0.toNat]

def cc0_transform_15 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_16 (i : grid0.Coords) : Fin 2 → Nat :=
  let arg0 : BitVec 32 := BitVec.ofNat 32 (i 0).val
  let c7_i32 : BitVec 32 := 7#32
  let c0_i32 : BitVec 32 := 0#32
  ![c7_i32.toNat, arg0.toNat]

def cc0_transform_17 (i : grid0.Coords) : Fin 2 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x2048 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S32x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  slices_S32x2048_o0_0_S32x256 : S32x2048.Slices ![0, 0] S32x256
  inb_S256x512_S256x512_0_0 : ∀ a, (![0, 0] : Fin 2 → Nat) a + S256x512.size a ≤ S256x512.size a
  h_S256x512 : 0 < S256x512.numel
  slices_S32x2048_o0_256_S32x256 : S32x2048.Slices ![0, 256] S32x256
  slices_S32x2048_o0_512_S32x256 : S32x2048.Slices ![0, 512] S32x256
  slices_S32x2048_o0_768_S32x256 : S32x2048.Slices ![0, 768] S32x256
  slices_S32x2048_o0_1024_S32x256 : S32x2048.Slices ![0, 1024] S32x256
  slices_S32x2048_o0_1280_S32x256 : S32x2048.Slices ![0, 1280] S32x256
  slices_S32x2048_o0_1536_S32x256 : S32x2048.Slices ![0, 1536] S32x256
  slices_S32x2048_o0_1792_S32x256 : S32x2048.Slices ![0, 1792] S32x256
  slices_S32x512_o0_0_S32x64 : S32x512.Slices ![0, 0] S32x64
  inb_S64x2048_S64x2048_0_0 : ∀ a, (![0, 0] : Fin 2 → Nat) a + S64x2048.size a ≤ S64x2048.size a
  h_S64x2048 : 0 < S64x2048.numel
  slices_S32x512_o0_64_S32x64 : S32x512.Slices ![0, 64] S32x64
  slices_S32x512_o0_128_S32x64 : S32x512.Slices ![0, 128] S32x64
  slices_S32x512_o0_192_S32x64 : S32x512.Slices ![0, 192] S32x64
  slices_S32x512_o0_256_S32x64 : S32x512.Slices ![0, 256] S32x64
  slices_S32x512_o0_320_S32x64 : S32x512.Slices ![0, 320] S32x64
  slices_S32x512_o0_384_S32x64 : S32x512.Slices ![0, 384] S32x64
  slices_S32x512_o0_448_S32x64 : S32x512.Slices ![0, 448] S32x64
  shapeCasts_S32x2048_S32x2048 : S32x2048.ShapeCasts S32x2048
  dot_S32x256_S256x512_S32x512_1_0_0_1_n_n_wf : DotDims.WF S32x256 S256x512 S32x512 [1] [0] [0] [1] [] []
  dot_S32x64_S64x2048_S32x2048_1_0_0_1_n_n_wf : DotDims.WF S32x64 S64x2048 S32x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x2048.size a
  hwx0_1 : ∀ i : grid0.Coords, EltTy.bits .f32 = 32 ∨ (Rect.block (s := S2048x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x2048.size a
  hwx0_3 : ∀ i : grid0.Coords, EltTy.bits .f32 = 32 ∨ (Rect.block (s := S2048x2048) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x2048.size a
  hwx0_4 : ∀ i : grid0.Coords, EltTy.bits .f32 = 32 ∨ (Rect.block (s := S2048x2048) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x2048.size a
  hwx0_5 : ∀ i : grid0.Coords, EltTy.bits .f32 = 32 ∨ (Rect.block (s := S2048x2048) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S2048x2048.size a
  hwx0_6 : ∀ i : grid0.Coords, EltTy.bits .f32 = 32 ∨ (Rect.block (s := S2048x2048) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S2048x2048.size a
  hwx0_7 : ∀ i : grid0.Coords, EltTy.bits .f32 = 32 ∨ (Rect.block (s := S2048x2048) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S2048x2048.size a
  hwx0_8 : ∀ i : grid0.Coords, EltTy.bits .f32 = 32 ∨ (Rect.block (s := S2048x2048) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S2048x2048.size a
  hwx0_9 : ∀ i : grid0.Coords, EltTy.bits .f32 = 32 ∨ (Rect.block (s := S2048x2048) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S2048x2048.size a
  hwx0_10 : ∀ i : grid0.Coords, EltTy.bits .f32 = 32 ∨ (Rect.block (s := S2048x2048) S256x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S2048x2048.size a
  hwx0_11 : ∀ i : grid0.Coords, EltTy.bits .f32 = 32 ∨ (Rect.block (s := S2048x2048) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S2048x2048.size a
  hwx0_12 : ∀ i : grid0.Coords, EltTy.bits .f32 = 32 ∨ (Rect.block (s := S2048x2048) S256x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S2048x2048.size a
  hwx0_13 : ∀ i : grid0.Coords, EltTy.bits .f32 = 32 ∨ (Rect.block (s := S2048x2048) S256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S2048x2048.size a
  hwx0_14 : ∀ i : grid0.Coords, EltTy.bits .f32 = 32 ∨ (Rect.block (s := S2048x2048) S256x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S2048x2048.size a
  hwx0_15 : ∀ i : grid0.Coords, EltTy.bits .f32 = 32 ∨ (Rect.block (s := S2048x2048) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S2048x2048.size a
  hwx0_16 : ∀ i : grid0.Coords, EltTy.bits .f32 = 32 ∨ (Rect.block (s := S2048x2048) S256x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x2048.size a ≤ S2048x2048.size a
  hwx0_17 : ∀ i : grid0.Coords, EltTy.bits .f32 = 32 ∨ (Rect.block (s := S2048x2048) S64x2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x2048.size a ≤ S2048x2048.size a
  hwx0_18 : ∀ i : grid0.Coords, EltTy.bits .f32 = 32 ∨ (Rect.block (s := S2048x2048) S64x2048.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x2048.size a ≤ S2048x2048.size a
  hwx0_19 : ∀ i : grid0.Coords, EltTy.bits .f32 = 32 ∨ (Rect.block (s := S2048x2048) S64x2048.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S64x2048.size a ≤ S2048x2048.size a
  hwx0_20 : ∀ i : grid0.Coords, EltTy.bits .f32 = 32 ∨ (Rect.block (s := S2048x2048) S64x2048.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S64x2048.size a ≤ S2048x2048.size a
  hwx0_21 : ∀ i : grid0.Coords, EltTy.bits .f32 = 32 ∨ (Rect.block (s := S2048x2048) S64x2048.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S64x2048.size a ≤ S2048x2048.size a
  hwx0_22 : ∀ i : grid0.Coords, EltTy.bits .f32 = 32 ∨ (Rect.block (s := S2048x2048) S64x2048.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S64x2048.size a ≤ S2048x2048.size a
  hwx0_23 : ∀ i : grid0.Coords, EltTy.bits .f32 = 32 ∨ (Rect.block (s := S2048x2048) S64x2048.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S64x2048.size a ≤ S2048x2048.size a
  hwx0_24 : ∀ i : grid0.Coords, EltTy.bits .f32 = 32 ∨ (Rect.block (s := S2048x2048) S64x2048.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S32x2048.size a ≤ S32x2048.size a
  hwx0_25 : ∀ i : grid0.Coords, EltTy.bits .f32 = 32 ∨ (Rect.block (s := S32x2048) S32x2048.size (cc0_transform_25 i) (hinb0_25 i)).WholeWords (EltTy.packing .f32)

variable [Facts₀]

def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf
def dot_S32x64_S64x2048_S32x2048_1_0_0_1_n_n : DotDims S32x64 S64x2048 S32x2048 where
  lhsContracting := [1]
  rhsContracting := [0]
  lhsNonContracting := [0]
  rhsNonContracting := [1]
  lhsBatch := []
  rhsBatch := []
  wf := dot_S32x64_S64x2048_S32x2048_1_0_0_1_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S256x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S256x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg2) S256x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg2) S256x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg2) S256x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S256x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg2) S256x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg2) S256x512.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg3) S64x2048.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg3) S64x2048.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_arg3) S64x2048.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_arg3) S64x2048.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_arg3) S64x2048.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_arg3) S64x2048.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_arg3) S64x2048.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg3) S64x2048.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0) S32x2048.size cc0_transform_25 reads0_25 true true 1 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

abbrev idle0 : Fin 26 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun i => !(k0_cond1 i == 1#1) && !(k0_cond2 i == 1#1) | ⟨_ + 26, h⟩ => absurd h (Nat.not_lt.2 (Nat.le_add_left _ _))

class Facts : Prop extends Facts₀ where

variable [Facts]
-- ==== ReferenceIdeal.lean ====
abbrev S32x2048 : Shape := ⟨2, ![32, 2048]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S32x2048, .f32⟩
  | .hbm, ⟨5, _⟩ => ⟨S32x2048, .f32⟩
  | .hbm, ⟨6, _⟩ => ⟨S32x2048, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  dot_S32x2048_S2048x2048_S32x2048_1_0_0_1_n_n_wf : DotDims.WF S32x2048 S2048x2048 S32x2048 [1] [0] [0] [1] [] []

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf

class Facts : Prop extends Facts₀ where

variable [Facts]
-- ==== Proof.KFrameBase.lean ====
/-
  The kernel of this certificate is a SwiGLU feed-forward block computed in one streaming pass: at each of the four grid
  points j it reads x whole, eight row-slabs of W_gate[:, 512 j : 512 j + 512] and of W_up[:, 512 j : 512 j + 512]
  (256 rows each) and eight row-slabs of W_down[512 j : 512 j + 512, :] (64 rows each), and adds
  act_j · W_down-slab into the output block, which stays in its staging buffer from point to point and is written back
  once, after the last point. This module fixes what the later ones share: the arrays as the region finds them, a
  window's block at a point, and the two branch conditions (first point / later point) in closed form.
-/
import proofs.«128006_g77111842832762_cont_sun_m_58_34_alg».proof.Proof.Gen.Kernel.Launch
import proofs.«128006_g77111842832762_cont_sun_m_58_34_alg».proof.Proof.Gen.Kernel.Skeleton
import proofs.«128006_g77111842832762_cont_sun_m_58_34_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch (store the contribution) is taken at the first point only, the second (add it to what the
    output block holds) at every later point: decided over the grid. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One staging buffer of the output window, through which its contents are stated. -/
abbrev VO : View sig .tc .vmem S32x2048 .f32 := (Memref.whole cc0_stg25_0 : Memref sig .tc .vmem S32x2048 .f32).view

end Cert.Kernel.Hand

end
-- ==== Proof.KRunA.lean ====
/-
  The kernel body run once, symbolically, at a FIRST point (the contribution is stored into the output block):
  on whole staging buffers holding the point's input blocks, it runs to the end leaving the inputs
  as they were and the output buffer overwritten by the pieces the run finds.
-/
import proofs.«128006_g77111842832762_cont_sun_m_58_34_alg».proof.Proof.KFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) :
    { L : List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    iexists _; iexact H25

end Cert.Kernel.Hand

end
-- ==== Proof.KRunB.lean ====
/-
  The kernel body run once, symbolically, at a LATER point (the contribution is added to what the output block holds):
  on whole staging buffers holding the point's input blocks and the running output block, it runs to the end leaving the inputs
  as they were and the output buffer overwritten by the pieces the run finds.
-/
import proofs.«128006_g77111842832762_cont_sun_m_58_34_alg».proof.Proof.KFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) :
    { L : List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    iexists _; iexact H25

end Cert.Kernel.Hand

end
-- ==== Proof.KFrameOut.lean ====
/-
  What the output block of the SwiGLU kernel holds after each grid point (the first point's contribution, then one more
  contribution added per point), and the pipeline's proof data: every input window's staging buffer holds its block at
  every point; the output's holds what the body left at the point before; each weight matrix, read through eight
  windows, is held by each of them at an eighth of its full share.
-/
import proofs.«128006_g77111842832762_cont_sun_m_58_34_alg».proof.Proof.KRunA
import proofs.«128006_g77111842832762_cont_sun_m_58_34_alg».proof.Proof.KRunB
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces tile the output block (one store of the whole block), so they cover it. -/
theorem coverA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (y : S32x2048.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1 S32x2048.size (by sl_kernel_rfl) y

/-- What the first point leaves in the output block's staging buffer. -/
def outA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) : Vec F S32x2048 .f32 :=
  VO.read (Elt F) (VO.writes (Elt F) VO.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1)

/-- A later point's pieces cover the output block likewise. -/
theorem coverB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) (y : S32x2048.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1 S32x2048.size (by sl_kernel_rfl) y

/-- What a later point leaves there, given what the point before left (`xo`). -/
def outB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) : Vec F S32x2048 .f32 :=
  VO.read (Elt F) (VO.writes (Elt F) VO.junk (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1)

/-- THE ACCUMULATION: what the output block's staging buffer holds after the body at position `n`. -/
def outsAt (c : Dev nD) : (n : ℕ) → n < cfg0.N → Vec F S32x2048 .f32
  | 0, hn => outA c (grid0.coords ⟨0, hn⟩) (win0_0.stage (cfg0.slots ⟨0, hn⟩ 0)) (hstage0_0 ((cfg0.slots ⟨0, hn⟩ 0).cast nbuf0_0)) (win0_1.stage (cfg0.slots ⟨0, hn⟩ 1)) (hstage0_1 ((cfg0.slots ⟨0, hn⟩ 1).cast nbuf0_1)) (win0_2.stage (cfg0.slots ⟨0, hn⟩ 2)) (hstage0_2 ((cfg0.slots ⟨0, hn⟩ 2).cast nbuf0_2)) (win0_3.stage (cfg0.slots ⟨0, hn⟩ 3)) (hstage0_3 ((cfg0.slots ⟨0, hn⟩ 3).cast nbuf0_3)) (win0_4.stage (cfg0.slots ⟨0, hn⟩ 4)) (hstage0_4 ((cfg0.slots ⟨0, hn⟩ 4).cast nbuf0_4)) (win0_5.stage (cfg0.slots ⟨0, hn⟩ 5)) (hstage0_5 ((cfg0.slots ⟨0, hn⟩ 5).cast nbuf0_5)) (win0_6.stage (cfg0.slots ⟨0, hn⟩ 6)) (hstage0_6 ((cfg0.slots ⟨0, hn⟩ 6).cast nbuf0_6)) (win0_7.stage (cfg0.slots ⟨0, hn⟩ 7)) (hstage0_7 ((cfg0.slots ⟨0, hn⟩ 7).cast nbuf0_7)) (win0_8.stage (cfg0.slots ⟨0, hn⟩ 8)) (hstage0_8 ((cfg0.slots ⟨0, hn⟩ 8).cast nbuf0_8)) (win0_9.stage (cfg0.slots ⟨0, hn⟩ 9)) (hstage0_9 ((cfg0.slots ⟨0, hn⟩ 9).cast nbuf0_9)) (win0_10.stage (cfg0.slots ⟨0, hn⟩ 10)) (hstage0_10 ((cfg0.slots ⟨0, hn⟩ 10).cast nbuf0_10)) (win0_11.stage (cfg0.slots ⟨0, hn⟩ 11)) (hstage0_11 ((cfg0.slots ⟨0, hn⟩ 11).cast nbuf0_11)) (win0_12.stage (cfg0.slots ⟨0, hn⟩ 12)) (hstage0_12 ((cfg0.slots ⟨0, hn⟩ 12).cast nbuf0_12)) (win0_13.stage (cfg0.slots ⟨0, hn⟩ 13)) (hstage0_13 ((cfg0.slots ⟨0, hn⟩ 13).cast nbuf0_13)) (win0_14.stage (cfg0.slots ⟨0, hn⟩ 14)) (hstage0_14 ((cfg0.slots ⟨0, hn⟩ 14).cast nbuf0_14)) (win0_15.stage (cfg0.slots ⟨0, hn⟩ 15)) (hstage0_15 ((cfg0.slots ⟨0, hn⟩ 15).cast nbuf0_15)) (win0_16.stage (cfg0.slots ⟨0, hn⟩ 16)) (hstage0_16 ((cfg0.slots ⟨0, hn⟩ 16).cast nbuf0_16)) (win0_17.stage (cfg0.slots ⟨0, hn⟩ 17)) (hstage0_17 ((cfg0.slots ⟨0, hn⟩ 17).cast nbuf0_17)) (win0_18.stage (cfg0.slots ⟨0, hn⟩ 18)) (hstage0_18 ((cfg0.slots ⟨0, hn⟩ 18).cast nbuf0_18)) (win0_19.stage (cfg0.slots ⟨0, hn⟩ 19)) (hstage0_19 ((cfg0.slots ⟨0, hn⟩ 19).cast nbuf0_19)) (win0_20.stage (cfg0.slots ⟨0, hn⟩ 20)) (hstage0_20 ((cfg0.slots ⟨0, hn⟩ 20).cast nbuf0_20)) (win0_21.stage (cfg0.slots ⟨0, hn⟩ 21)) (hstage0_21 ((cfg0.slots ⟨0, hn⟩ 21).cast nbuf0_21)) (win0_22.stage (cfg0.slots ⟨0, hn⟩ 22)) (hstage0_22 ((cfg0.slots ⟨0, hn⟩ 22).cast nbuf0_22)) (win0_23.stage (cfg0.slots ⟨0, hn⟩ 23)) (hstage0_23 ((cfg0.slots ⟨0, hn⟩ 23).cast nbuf0_23)) (win0_24.stage (cfg0.slots ⟨0, hn⟩ 24)) (hstage0_24 ((cfg0.slots ⟨0, hn⟩ 24).cast nbuf0_24)) (win0_25.stage (cfg0.slots ⟨0, hn⟩ 25)) (hstage0_25 ((cfg0.slots ⟨0, hn⟩ 25).cast nbuf0_25)) ((hcond1 ⟨0, hn⟩).mpr rfl) (fun h => (hcond2 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩)
  | n + 1, hn => outB c (grid0.coords ⟨n + 1, hn⟩) (win0_0.stage (cfg0.slots ⟨n + 1, hn⟩ 0)) (hstage0_0 ((cfg0.slots ⟨n + 1, hn⟩ 0).cast nbuf0_0)) (win0_1.stage (cfg0.slots ⟨n + 1, hn⟩ 1)) (hstage0_1 ((cfg0.slots ⟨n + 1, hn⟩ 1).cast nbuf0_1)) (win0_2.stage (cfg0.slots ⟨n + 1, hn⟩ 2)) (hstage0_2 ((cfg0.slots ⟨n + 1, hn⟩ 2).cast nbuf0_2)) (win0_3.stage (cfg0.slots ⟨n + 1, hn⟩ 3)) (hstage0_3 ((cfg0.slots ⟨n + 1, hn⟩ 3).cast nbuf0_3)) (win0_4.stage (cfg0.slots ⟨n + 1, hn⟩ 4)) (hstage0_4 ((cfg0.slots ⟨n + 1, hn⟩ 4).cast nbuf0_4)) (win0_5.stage (cfg0.slots ⟨n + 1, hn⟩ 5)) (hstage0_5 ((cfg0.slots ⟨n + 1, hn⟩ 5).cast nbuf0_5)) (win0_6.stage (cfg0.slots ⟨n + 1, hn⟩ 6)) (hstage0_6 ((cfg0.slots ⟨n + 1, hn⟩ 6).cast nbuf0_6)) (win0_7.stage (cfg0.slots ⟨n + 1, hn⟩ 7)) (hstage0_7 ((cfg0.slots ⟨n + 1, hn⟩ 7).cast nbuf0_7)) (win0_8.stage (cfg0.slots ⟨n + 1, hn⟩ 8)) (hstage0_8 ((cfg0.slots ⟨n + 1, hn⟩ 8).cast nbuf0_8)) (win0_9.stage (cfg0.slots ⟨n + 1, hn⟩ 9)) (hstage0_9 ((cfg0.slots ⟨n + 1, hn⟩ 9).cast nbuf0_9)) (win0_10.stage (cfg0.slots ⟨n + 1, hn⟩ 10)) (hstage0_10 ((cfg0.slots ⟨n + 1, hn⟩ 10).cast nbuf0_10)) (win0_11.stage (cfg0.slots ⟨n + 1, hn⟩ 11)) (hstage0_11 ((cfg0.slots ⟨n + 1, hn⟩ 11).cast nbuf0_11)) (win0_12.stage (cfg0.slots ⟨n + 1, hn⟩ 12)) (hstage0_12 ((cfg0.slots ⟨n + 1, hn⟩ 12).cast nbuf0_12)) (win0_13.stage (cfg0.slots ⟨n + 1, hn⟩ 13)) (hstage0_13 ((cfg0.slots ⟨n + 1, hn⟩ 13).cast nbuf0_13)) (win0_14.stage (cfg0.slots ⟨n + 1, hn⟩ 14)) (hstage0_14 ((cfg0.slots ⟨n + 1, hn⟩ 14).cast nbuf0_14)) (win0_15.stage (cfg0.slots ⟨n + 1, hn⟩ 15)) (hstage0_15 ((cfg0.slots ⟨n + 1, hn⟩ 15).cast nbuf0_15)) (win0_16.stage (cfg0.slots ⟨n + 1, hn⟩ 16)) (hstage0_16 ((cfg0.slots ⟨n + 1, hn⟩ 16).cast nbuf0_16)) (win0_17.stage (cfg0.slots ⟨n + 1, hn⟩ 17)) (hstage0_17 ((cfg0.slots ⟨n + 1, hn⟩ 17).cast nbuf0_17)) (win0_18.stage (cfg0.slots ⟨n + 1, hn⟩ 18)) (hstage0_18 ((cfg0.slots ⟨n + 1, hn⟩ 18).cast nbuf0_18)) (win0_19.stage (cfg0.slots ⟨n + 1, hn⟩ 19)) (hstage0_19 ((cfg0.slots ⟨n + 1, hn⟩ 19).cast nbuf0_19)) (win0_20.stage (cfg0.slots ⟨n + 1, hn⟩ 20)) (hstage0_20 ((cfg0.slots ⟨n + 1, hn⟩ 20).cast nbuf0_20)) (win0_21.stage (cfg0.slots ⟨n + 1, hn⟩ 21)) (hstage0_21 ((cfg0.slots ⟨n + 1, hn⟩ 21).cast nbuf0_21)) (win0_22.stage (cfg0.slots ⟨n + 1, hn⟩ 22)) (hstage0_22 ((cfg0.slots ⟨n + 1, hn⟩ 22).cast nbuf0_22)) (win0_23.stage (cfg0.slots ⟨n + 1, hn⟩ 23)) (hstage0_23 ((cfg0.slots ⟨n + 1, hn⟩ 23).cast nbuf0_23)) (win0_24.stage (cfg0.slots ⟨n + 1, hn⟩ 24)) (hstage0_24 ((cfg0.slots ⟨n + 1, hn⟩ 24).cast nbuf0_24)) (win0_25.stage (cfg0.slots ⟨n + 1, hn⟩ 25)) (hstage0_25 ((cfg0.slots ⟨n + 1, hn⟩ 25).cast nbuf0_25)) (fun h => Nat.succ_ne_zero n ((hcond1 ⟨n + 1, hn⟩).mp h)) ((hcond2 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt c n (Nat.lt_of_succ_lt hn))

theorem outsAt_A (c : Dev nD) (t : Fin cfg0.N) (h0 : t.val = 0) :
    outsAt m c t.val t.isLt = outA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by
  obtain ⟨n, hn⟩ := t
  cases n with
  | zero => exact rfl
  | succ n => exact absurd h0 (Nat.succ_ne_zero n)

theorem outsAt_B (c : Dev nD) (t : Fin cfg0.N) (h0 : t.val ≠ 0) :
    outsAt m c t.val t.isLt = outB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt m c (t.val - 1) (Nat.lt_of_le_of_lt (Nat.sub_le _ _) t.isLt)) := by
  obtain ⟨n, hn⟩ := t
  cases n with
  | zero => exact absurd rfl h0
  | succ n => exact rfl

/-- The pipeline's proof data on core `c`. The three weight matrices are each read through eight windows: each window
    holds an eighth of its array's full share (three halvings); x and the output are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => outsAt m c t.val t.isLt
    | ⟨_ + 26, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare.left.left.left
    | ⟨2, _⟩ => fullShare.left.left.right
    | ⟨3, _⟩ => fullShare.left.right.left
    | ⟨4, _⟩ => fullShare.left.right.right
    | ⟨5, _⟩ => fullShare.right.left.left
    | ⟨6, _⟩ => fullShare.right.left.right
    | ⟨7, _⟩ => fullShare.right.right.left
    | ⟨8, _⟩ => fullShare.right.right.right
    | ⟨9, _⟩ => fullShare.left.left.left
    | ⟨10, _⟩ => fullShare.left.left.right
    | ⟨11, _⟩ => fullShare.left.right.left
    | ⟨12, _⟩ => fullShare.left.right.right
    | ⟨13, _⟩ => fullShare.right.left.left
    | ⟨14, _⟩ => fullShare.right.left.right
    | ⟨15, _⟩ => fullShare.right.right.left
    | ⟨16, _⟩ => fullShare.right.right.right
    | ⟨17, _⟩ => fullShare.left.left.left
    | ⟨18, _⟩ => fullShare.left.left.right
    | ⟨19, _⟩ => fullShare.left.right.left
    | ⟨20, _⟩ => fullShare.left.right.right
    | ⟨21, _⟩ => fullShare.right.left.left
    | ⟨22, _⟩ => fullShare.right.left.right
    | ⟨23, _⟩ => fullShare.right.right.left
    | ⟨24, _⟩ => fullShare.right.right.right
    | ⟨25, _⟩ => fullShare
    | ⟨_ + 26, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = outsAt m c t.val t.isLt := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)

/-- The output window is stored into at every grid point (at the first by the first branch, at the others by the second). -/
theorem idle25 : ∀ i : grid0.Coords, cfg0.idle 25 i = false := by decide +kernel

/-- At a later point the output block's buffer holds what the body left at the point before: it is not written back
    between (only after the last point). -/
theorem before_25_B (c : Dev nD) (t : Fin cfg0.N) (h0 : t.val ≠ 0) (d) :
    (dats m 0 c).before 25 t d = outsAt m c (t.val - 1) (Nat.lt_of_le_of_lt (Nat.sub_le _ _) t.isLt) := by
  have hN : t.val < 4 := lt_of_lt_of_eq t.isLt (show cfg0.N = 4 from N_0)
  rw [Dat.before_out_kept _ 25 rfl t h0 (Bool.eq_false_iff.mpr fun h => by have := (flush0_25 _).mp h; dsimp only at this; omega)
    idle25 (fun _ _ => rfl)]
  dsimp only [dats]

end Cert.Kernel.Hand

end
-- ==== Proof.KFrameBody.lean ====
/-
  The kernel body at a generic grid point: handed the point's input blocks and (after the first point) the running
  output block, it leaves the inputs in place and the output block at the next running value.
-/
import proofs.«128006_g77111842832762_cont_sun_m_58_34_alg».proof.Proof.KFrameOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  by_cases h0 : t.val = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRunA c (grid0.coords t) _ _ _ _ _ _ _ _ _ _ _ _ _ _ _ _ _ _ _ _ _ _ _ _ _ _ _ _ _ _ _ _ _ _ _ _ _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    iintro ⟨H0, H1, H2, H3, H4, H5, H6, H7, H8, H9, H10, H11, H12, H13, H14, H15, H16, H17, H18, H19, H20, H21, H22, H23, H24, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverA c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt_B m c t h0]
    simp only [before_25_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRunB c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iintro ⟨H0, H1, H2, H3, H4, H5, H6, H7, H8, H9, H10, H11, H12, H13, H14, H15, H16, H17, H18, H19, H20, H21, H22, H23, H24, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverB c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel.Hand

end
-- ==== Proof.KFrameObl.lean ====
/-
  The pipeline's body obligation at every point, from the body's triple at a generic point.
-/
import proofs.«128006_g77111842832762_cont_sun_m_58_34_alg».proof.Proof.KFrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats (F := F) m 0 c) (defs₀ (F := F)) Variants.none () Set.univ := fun t => by
  rw [bigSep_W0, bigSep_W0]
  simp only [show ∀ i : grid0.Coords, idle0 25 i = false from idle25]
  exact sound_body m c t

end Cert.Kernel.Hand

end
-- ==== Proof.KFrameSplit.lean ====
/-
  Dealing the arrays among the windows: x and the result are each one window's; each weight matrix's full share is
  halved three times, one eighth to each of the eight windows that read it.
-/
import proofs.«128006_g77111842832762_cont_sun_m_58_34_alg».proof.Proof.KFrameOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed. -/
theorem arrBufs_eq (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = bigSepL [main_arg0, main_arg1, main_arg2, main_arg3, main_v0] fun b => ((c.tc : Thread nD τ).loc b) ↦{fullShare} V' b := by
  unfold Pipeline.arrBufs; exact bigSep_eq_bigSepL_of_eq _ (by decide) (by decide) _

set_option maxHeartbeats 2000000 in
/-- Dealing the arrays among the windows: each weight matrix's full share is halved three times, one eighth per window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [show (bigSep Finset.univ fun w : Fin cfg0.W => ((cfg0.win w).arr.view.loc (c.tc : Thread nD τ) ↦[(cfg0.win w).arr.view.set]{(dats m 0 c).share w} (dats m 0 c).arrAt w 0 : sProp 𝕄))
      = bigSep Finset.univ fun w : Fin cfg0.W => (((c.tc : Thread nD τ).loc (Pipeline.arrRef spec0 w)) ↦{(dats m 0 c).share w} V m c (Pipeline.arrRef spec0 w) : sProp 𝕄)
      from bigSep_congr fun w _ => by rw [(arr_whole0 w).set_eq_univ]; rfl]
  rw [bigSep_W0]
  show (iprop(((c.tc : Thread nD τ).loc main_arg0 ↦{fullShare} V m c main_arg0) ∗ ((c.tc : Thread nD τ).loc main_arg1 ↦{fullShare} V m c main_arg1) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0)) : sProp 𝕄) ⊢ (iprop(((c.tc : Thread nD τ).loc main_arg0 ↦{fullShare} V m c main_arg0) ∗ ((c.tc : Thread nD τ).loc main_arg1 ↦{fullShare.left.left.left} V m c main_arg1) ∗ ((c.tc : Thread nD τ).loc main_arg1 ↦{fullShare.left.left.right} V m c main_arg1) ∗ ((c.tc : Thread nD τ).loc main_arg1 ↦{fullShare.left.right.left} V m c main_arg1) ∗ ((c.tc : Thread nD τ).loc main_arg1 ↦{fullShare.left.right.right} V m c main_arg1) ∗ ((c.tc : Thread nD τ).loc main_arg1 ↦{fullShare.right.left.left} V m c main_arg1) ∗ ((c.tc : Thread nD τ).loc main_arg1 ↦{fullShare.right.left.right} V m c main_arg1) ∗ ((c.tc : Thread nD τ).loc main_arg1 ↦{fullShare.right.right.left} V m c main_arg1) ∗ ((c.tc : Thread nD τ).loc main_arg1 ↦{fullShare.right.right.right} V m c main_arg1) ∗ ((c.tc : Thread nD τ).loc main_arg2 ↦{fullShare.left.left.left} V m c main_arg2) ∗ ((c.tc : Thread nD τ).loc main_arg2 ↦{fullShare.left.left.right} V m c main_arg2) ∗ ((c.tc : Thread nD τ).loc main_arg2 ↦{fullShare.left.right.left} V m c main_arg2) ∗ ((c.tc : Thread nD τ).loc main_arg2 ↦{fullShare.left.right.right} V m c main_arg2) ∗ ((c.tc : Thread nD τ).loc main_arg2 ↦{fullShare.right.left.left} V m c main_arg2) ∗ ((c.tc : Thread nD τ).loc main_arg2 ↦{fullShare.right.left.right} V m c main_arg2) ∗ ((c.tc : Thread nD τ).loc main_arg2 ↦{fullShare.right.right.left} V m c main_arg2) ∗ ((c.tc : Thread nD τ).loc main_arg2 ↦{fullShare.right.right.right} V m c main_arg2) ∗ ((c.tc : Thread nD τ).loc main_arg3 ↦{fullShare.left.left.left} V m c main_arg3) ∗ ((c.tc : Thread nD τ).loc main_arg3 ↦{fullShare.left.left.right} V m c main_arg3) ∗ ((c.tc : Thread nD τ).loc main_arg3 ↦{fullShare.left.right.left} V m c main_arg3) ∗ ((c.tc : Thread nD τ).loc main_arg3 ↦{fullShare.left.right.right} V m c main_arg3) ∗ ((c.tc : Thread nD τ).loc main_arg3 ↦{fullShare.right.left.left} V m c main_arg3) ∗ ((c.tc : Thread nD τ).loc main_arg3 ↦{fullShare.right.left.right} V m c main_arg3) ∗ ((c.tc : Thread nD τ).loc main_arg3 ↦{fullShare.right.right.left} V m c main_arg3) ∗ ((c.tc : Thread nD τ).loc main_arg3 ↦{fullShare.right.right.right} V m c main_arg3) ∗ ((c.tc : Thread nD τ).loc main_v0 ↦{fullShare} V m c main_v0)) : sProp 𝕄)
  iintro ⟨A0, A1, A2, A3, A4⟩
  ihave T := (pointsTo_share (PosShare.mem_left_op_right _)).1 $$ A1
  icases T with ⟨A1l, A1r⟩
  ihave T := (pointsTo_share (PosShare.mem_left_op_right _)).1 $$ A1l
  icases T with ⟨A1ll, A1lr⟩
  ihave T := (pointsTo_share (PosShare.mem_left_op_right _)).1 $$ A1r
  icases T with ⟨A1rl, A1rr⟩
  ihave T := (pointsTo_share (PosShare.mem_left_op_right _)).1 $$ A1ll
  icases T with ⟨A1lll, A1llr⟩
  ihave T := (pointsTo_share (PosShare.mem_left_op_right _)).1 $$ A1lr
  icases T with ⟨A1lrl, A1lrr⟩
  ihave T := (pointsTo_share (PosShare.mem_left_op_right _)).1 $$ A1rl
  icases T with ⟨A1rll, A1rlr⟩
  ihave T := (pointsTo_share (PosShare.mem_left_op_right _)).1 $$ A1rr
  icases T with ⟨A1rrl, A1rrr⟩
  ihave T := (pointsTo_share (PosShare.mem_left_op_right _)).1 $$ A2
  icases T with ⟨A2l, A2r⟩
  ihave T := (pointsTo_share (PosShare.mem_left_op_right _)).1 $$ A2l
  icases T with ⟨A2ll, A2lr⟩
  ihave T := (pointsTo_share (PosShare.mem_left_op_right _)).1 $$ A2r
  icases T with ⟨A2rl, A2rr⟩
  ihave T := (pointsTo_share (PosShare.mem_left_op_right _)).1 $$ A2ll
  icases T with ⟨A2lll, A2llr⟩
  ihave T := (pointsTo_share (PosShare.mem_left_op_right _)).1 $$ A2lr
  icases T with ⟨A2lrl, A2lrr⟩
  ihave T := (pointsTo_share (PosShare.mem_left_op_right _)).1 $$ A2rl
  icases T with ⟨A2rll, A2rlr⟩
  ihave T := (pointsTo_share (PosShare.mem_left_op_right _)).1 $$ A2rr
  icases T with ⟨A2rrl, A2rrr⟩
  ihave T := (pointsTo_share (PosShare.mem_left_op_right _)).1 $$ A3
  icases T with ⟨A3l, A3r⟩
  ihave T := (pointsTo_share (PosShare.mem_left_op_right _)).1 $$ A3l
  icases T with ⟨A3ll, A3lr⟩
  ihave T := (pointsTo_share (PosShare.mem_left_op_right _)).1 $$ A3r
  icases T with ⟨A3rl, A3rr⟩
  ihave T := (pointsTo_share (PosShare.mem_left_op_right _)).1 $$ A3ll
  icases T with ⟨A3lll, A3llr⟩
  ihave T := (pointsTo_share (PosShare.mem_left_op_right _)).1 $$ A3lr
  icases T with ⟨A3lrl, A3lrr⟩
  ihave T := (pointsTo_share (PosShare.mem_left_op_right _)).1 $$ A3rl
  icases T with ⟨A3rll, A3rlr⟩
  ihave T := (pointsTo_share (PosShare.mem_left_op_right _)).1 $$ A3rr
  icases T with ⟨A3rrl, A3rrr⟩
  isplitl [A0]; · iexact A0
  isplitl [A1lll]; · iexact A1lll
  isplitl [A1llr]; · iexact A1llr
  isplitl [A1lrl]; · iexact A1lrl
  isplitl [A1lrr]; · iexact A1lrr
  isplitl [A1rll]; · iexact A1rll
  isplitl [A1rlr]; · iexact A1rlr
  isplitl [A1rrl]; · iexact A1rrl
  isplitl [A1rrr]; · iexact A1rrr
  isplitl [A2lll]; · iexact A2lll
  isplitl [A2llr]; · iexact A2llr
  isplitl [A2lrl]; · iexact A2lrl
  isplitl [A2lrr]; · iexact A2lrr
  isplitl [A2rll]; · iexact A2rll
  isplitl [A2rlr]; · iexact A2rlr
  isplitl [A2rrl]; · iexact A2rrl
  isplitl [A2rrr]; · iexact A2rrr
  isplitl [A3lll]; · iexact A3lll
  isplitl [A3llr]; · iexact A3llr
  isplitl [A3lrl]; · iexact A3lrl
  isplitl [A3lrr]; · iexact A3lrr
  isplitl [A3rll]; · iexact A3rll
  isplitl [A3rlr]; · iexact A3rlr
  isplitl [A3rrl]; · iexact A3rrl
  isplitl [A3rrr]; · iexact A3rrr
  iexact A4

end Cert.Kernel.Hand

end
-- ==== Proof.KFrameRun.lean ====
/-
  THE RUN of the SwiGLU kernel: every weakly fair execution terminates, nothing faults, and each window's array ends
  at what the pipeline's write-backs make of it (an input array: its launch contents).
-/
import proofs.«128006_g77111842832762_cont_sun_m_58_34_alg».proof.Proof.KFrameObl
import proofs.«128006_g77111842832762_cont_sun_m_58_34_alg».proof.Proof.KFrameSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hX_ (c : Dev nD) : (Pipeline.unscopedRest (Ix := Unit) (Name := ℕ) (U := UR sig nD τ) (Lvl := ℕ) spec0 c (V m c) : sProp 𝕄)
    ⊢ iprop(emp ∗ Pipeline.unscopedRest (Ix := Unit) (Name := ℕ) (U := UR sig nD τ) (Lvl := ℕ) spec0 c (V m c)) := by
  iintro H
  isplitr
  · iempintro
  · iexact H

theorem hin_ (c : Dev nD) : (iprop(emp ∗ Pipeline.scopedRest (Ix := Unit) (Name := ℕ) (U := UR sig nD τ) (Lvl := ℕ) (Val := Elt F) spec0 c) : sProp 𝕄) ⊢ (dats m 0 c).Φ 0 := by
  show (iprop(emp ∗ Pipeline.scopedRest (Ix := Unit) (Name := ℕ) (U := UR sig nD τ) (Lvl := ℕ) (Val := Elt F) spec0 c) : sProp 𝕄) ⊢ (Pipeline.scopedRest (Ix := Unit) (Name := ℕ) (U := UR sig nD τ) (Lvl := ℕ) (Val := Elt F) spec0 c : sProp 𝕄)
  iintro ⟨-, H⟩
  iexact H

theorem hout_ (c : Dev nD) : (dats m 0 c).Φ (Fin.last cfg0.N) ⊢ (iprop(emp ∗ Pipeline.scopedRest (Ix := Unit) (Name := ℕ) (U := UR sig nD τ) (Lvl := ℕ) (Val := Elt F) spec0 c) : sProp 𝕄) := by
  show (Pipeline.scopedRest (Ix := Unit) (Name := ℕ) (U := UR sig nD τ) (Lvl := ℕ) (Val := Elt F) spec0 c : sProp 𝕄) ⊢ (iprop(emp ∗ Pipeline.scopedRest (Ix := Unit) (Name := ℕ) (U := UR sig nD τ) (Lvl := ℕ) (Val := Elt F) spec0 c) : sProp 𝕄)
  iintro H
  isplitr
  · iempintro
  · iexact H

theorem hY_ (c : Dev nD) (s' : Phys nD τ sig (Elt F)) :
    (iprop(emp ∗ Pipeline.unscopedRest (Ix := Unit) (Name := ℕ) (U := UR sig nD τ) (Lvl := ℕ) spec0 c (V m c) ∗ SI s') : sProp 𝕄) ⊢ |={Set.univ}=> iprop(⌜True⌝ ∗ SI s') := by
  iintro ⟨-, -, HSI⟩
  imodintro
  isplitr
  · ipureintro; trivial
  · iexact HSI

set_option backward.isDefEq.respectTransparency.types false in
/-- THE RUN: from any memory with zero counters every weakly fair execution terminates, nothing faulting, each window's
    array ending at what the proof data's write-backs make of it. -/
theorem run_main : θ_run defs (onTc (τ := τ) (main (F := F))) ⟨m, fun _ => 0, ρ⟩ (fun r => ∀ c : Dev nD,
      ∀ w : Fin cfg0.W, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun c => Pipeline.unscopedRest (Ix := Unit) (Name := ℕ) (U := UR sig nD τ) (Lvl := ℕ) spec0 c (V m c))
    (hX := hX_ m) (hin := hin_ m) (hout := hout_ m)
    (QY := fun _ _ => True) (hY := hY_ m)
    (hQ := fun s h c w => (h c).1 w)

/-- THE FRAME: the four argument arrays end as they were launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 1).trans (((dats m 0 c).arrAt_in 1 rfl _).trans (A_eq m c 1)),
     (h c 9).trans (((dats m 0 c).arrAt_in 9 rfl _).trans (A_eq m c 9)),
     (h c 17).trans (((dats m 0 c).arrAt_in 17 rfl _).trans (A_eq m c 17))⟩) (run_main m ρ)

end Cert.Kernel.Hand

end
-- ==== Proof.FrameBase.lean ====
/-
  The kernel of this certificate is a SwiGLU feed-forward block computed in one streaming pass: at each of the four grid
  points j it reads x whole, eight row-slabs of W_gate[:, 512 j : 512 j + 512] and of W_up[:, 512 j : 512 j + 512]
  (256 rows each) and eight row-slabs of W_down[512 j : 512 j + 512, :] (64 rows each), and adds
  act_j · W_down-slab into the output block, which stays in its staging buffer from point to point and is written back
  once, after the last point. This module fixes what the later ones share: the arrays as the region finds them, a
  window's block at a point, and the two branch conditions (first point / later point) in closed form.
-/
import proofs.«128006_g77111842832762_cont_sun_m_58_34_alg».proof.Proof.Gen.KernelIdeal.Launch
import proofs.«128006_g77111842832762_cont_sun_m_58_34_alg».proof.Proof.Gen.KernelIdeal.Skeleton
import proofs.«128006_g77111842832762_cont_sun_m_58_34_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch (store the contribution) is taken at the first point only, the second (add it to what the
    output block holds) at every later point: decided over the grid. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One staging buffer of the output window, through which its contents are stated. -/
abbrev VO : View sig .tc .vmem S32x2048 .f32 := (Memref.whole cc0_stg25_0 : Memref sig .tc .vmem S32x2048 .f32).view

end Cert.KernelIdeal.Hand

end
-- ==== Proof.RunA.lean ====
/-
  The kernel body run once, symbolically, at a FIRST point (the contribution is stored into the output block):
  on whole staging buffers holding the point's input blocks, it runs to the end leaving the inputs
  as they were and the output buffer overwritten by the pieces the run finds.
-/
import proofs.«128006_g77111842832762_cont_sun_m_58_34_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) :
    { L : List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    iexists _; iexact H25

end Cert.KernelIdeal.Hand

end
-- ==== Proof.RunB.lean ====
/-
  The kernel body run once, symbolically, at a LATER point (the contribution is added to what the output block holds):
  on whole staging buffers holding the point's input blocks and the running output block, it runs to the end leaving the inputs
  as they were and the output buffer overwritten by the pieces the run finds.
-/
import proofs.«128006_g77111842832762_cont_sun_m_58_34_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) :
    { L : List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__mlp_kernel_eq_skeleton]; unfold cc0__mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    iexists _; iexact H25

end Cert.KernelIdeal.Hand

end
-- ==== Proof.FrameOut.lean ====
/-
  What the output block of the SwiGLU kernel holds after each grid point (the first point's contribution, then one more
  contribution added per point), and the pipeline's proof data: every input window's staging buffer holds its block at
  every point; the output's holds what the body left at the point before; each weight matrix, read through eight
  windows, is held by each of them at an eighth of its full share.
-/
import proofs.«128006_g77111842832762_cont_sun_m_58_34_alg».proof.Proof.RunA
import proofs.«128006_g77111842832762_cont_sun_m_58_34_alg».proof.Proof.RunB
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces tile the output block (one store of the whole block), so they cover it. -/
theorem coverA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (y : S32x2048.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1 S32x2048.size (by sl_kernel_rfl) y

/-- What the first point leaves in the output block's staging buffer. -/
def outA (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) : Vec F S32x2048 .f32 :=
  VO.read (Elt F) (VO.writes (Elt F) VO.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24).1)

/-- A later point's pieces cover the output block likewise. -/
theorem coverB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) (y : S32x2048.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1 S32x2048.size (by sl_kernel_rfl) y

/-- What a later point leaves there, given what the point before left (`xo`). -/
def outB (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) : Vec F S32x2048 .f32 :=
  VO.read (Elt F) (VO.writes (Elt F) VO.junk (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo).1)

/-- THE ACCUMULATION: what the output block's staging buffer holds after the body at position `n`. -/
def outsAt (c : Dev nD) : (n : ℕ) → n < cfg0.N → Vec F S32x2048 .f32
  | 0, hn => outA c (grid0.coords ⟨0, hn⟩) (win0_0.stage (cfg0.slots ⟨0, hn⟩ 0)) (hstage0_0 ((cfg0.slots ⟨0, hn⟩ 0).cast nbuf0_0)) (win0_1.stage (cfg0.slots ⟨0, hn⟩ 1)) (hstage0_1 ((cfg0.slots ⟨0, hn⟩ 1).cast nbuf0_1)) (win0_2.stage (cfg0.slots ⟨0, hn⟩ 2)) (hstage0_2 ((cfg0.slots ⟨0, hn⟩ 2).cast nbuf0_2)) (win0_3.stage (cfg0.slots ⟨0, hn⟩ 3)) (hstage0_3 ((cfg0.slots ⟨0, hn⟩ 3).cast nbuf0_3)) (win0_4.stage (cfg0.slots ⟨0, hn⟩ 4)) (hstage0_4 ((cfg0.slots ⟨0, hn⟩ 4).cast nbuf0_4)) (win0_5.stage (cfg0.slots ⟨0, hn⟩ 5)) (hstage0_5 ((cfg0.slots ⟨0, hn⟩ 5).cast nbuf0_5)) (win0_6.stage (cfg0.slots ⟨0, hn⟩ 6)) (hstage0_6 ((cfg0.slots ⟨0, hn⟩ 6).cast nbuf0_6)) (win0_7.stage (cfg0.slots ⟨0, hn⟩ 7)) (hstage0_7 ((cfg0.slots ⟨0, hn⟩ 7).cast nbuf0_7)) (win0_8.stage (cfg0.slots ⟨0, hn⟩ 8)) (hstage0_8 ((cfg0.slots ⟨0, hn⟩ 8).cast nbuf0_8)) (win0_9.stage (cfg0.slots ⟨0, hn⟩ 9)) (hstage0_9 ((cfg0.slots ⟨0, hn⟩ 9).cast nbuf0_9)) (win0_10.stage (cfg0.slots ⟨0, hn⟩ 10)) (hstage0_10 ((cfg0.slots ⟨0, hn⟩ 10).cast nbuf0_10)) (win0_11.stage (cfg0.slots ⟨0, hn⟩ 11)) (hstage0_11 ((cfg0.slots ⟨0, hn⟩ 11).cast nbuf0_11)) (win0_12.stage (cfg0.slots ⟨0, hn⟩ 12)) (hstage0_12 ((cfg0.slots ⟨0, hn⟩ 12).cast nbuf0_12)) (win0_13.stage (cfg0.slots ⟨0, hn⟩ 13)) (hstage0_13 ((cfg0.slots ⟨0, hn⟩ 13).cast nbuf0_13)) (win0_14.stage (cfg0.slots ⟨0, hn⟩ 14)) (hstage0_14 ((cfg0.slots ⟨0, hn⟩ 14).cast nbuf0_14)) (win0_15.stage (cfg0.slots ⟨0, hn⟩ 15)) (hstage0_15 ((cfg0.slots ⟨0, hn⟩ 15).cast nbuf0_15)) (win0_16.stage (cfg0.slots ⟨0, hn⟩ 16)) (hstage0_16 ((cfg0.slots ⟨0, hn⟩ 16).cast nbuf0_16)) (win0_17.stage (cfg0.slots ⟨0, hn⟩ 17)) (hstage0_17 ((cfg0.slots ⟨0, hn⟩ 17).cast nbuf0_17)) (win0_18.stage (cfg0.slots ⟨0, hn⟩ 18)) (hstage0_18 ((cfg0.slots ⟨0, hn⟩ 18).cast nbuf0_18)) (win0_19.stage (cfg0.slots ⟨0, hn⟩ 19)) (hstage0_19 ((cfg0.slots ⟨0, hn⟩ 19).cast nbuf0_19)) (win0_20.stage (cfg0.slots ⟨0, hn⟩ 20)) (hstage0_20 ((cfg0.slots ⟨0, hn⟩ 20).cast nbuf0_20)) (win0_21.stage (cfg0.slots ⟨0, hn⟩ 21)) (hstage0_21 ((cfg0.slots ⟨0, hn⟩ 21).cast nbuf0_21)) (win0_22.stage (cfg0.slots ⟨0, hn⟩ 22)) (hstage0_22 ((cfg0.slots ⟨0, hn⟩ 22).cast nbuf0_22)) (win0_23.stage (cfg0.slots ⟨0, hn⟩ 23)) (hstage0_23 ((cfg0.slots ⟨0, hn⟩ 23).cast nbuf0_23)) (win0_24.stage (cfg0.slots ⟨0, hn⟩ 24)) (hstage0_24 ((cfg0.slots ⟨0, hn⟩ 24).cast nbuf0_24)) (win0_25.stage (cfg0.slots ⟨0, hn⟩ 25)) (hstage0_25 ((cfg0.slots ⟨0, hn⟩ 25).cast nbuf0_25)) ((hcond1 ⟨0, hn⟩).mpr rfl) (fun h => (hcond2 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩)
  | n + 1, hn => outB c (grid0.coords ⟨n + 1, hn⟩) (win0_0.stage (cfg0.slots ⟨n + 1, hn⟩ 0)) (hstage0_0 ((cfg0.slots ⟨n + 1, hn⟩ 0).cast nbuf0_0)) (win0_1.stage (cfg0.slots ⟨n + 1, hn⟩ 1)) (hstage0_1 ((cfg0.slots ⟨n + 1, hn⟩ 1).cast nbuf0_1)) (win0_2.stage (cfg0.slots ⟨n + 1, hn⟩ 2)) (hstage0_2 ((cfg0.slots ⟨n + 1, hn⟩ 2).cast nbuf0_2)) (win0_3.stage (cfg0.slots ⟨n + 1, hn⟩ 3)) (hstage0_3 ((cfg0.slots ⟨n + 1, hn⟩ 3).cast nbuf0_3)) (win0_4.stage (cfg0.slots ⟨n + 1, hn⟩ 4)) (hstage0_4 ((cfg0.slots ⟨n + 1, hn⟩ 4).cast nbuf0_4)) (win0_5.stage (cfg0.slots ⟨n + 1, hn⟩ 5)) (hstage0_5 ((cfg0.slots ⟨n + 1, hn⟩ 5).cast nbuf0_5)) (win0_6.stage (cfg0.slots ⟨n + 1, hn⟩ 6)) (hstage0_6 ((cfg0.slots ⟨n + 1, hn⟩ 6).cast nbuf0_6)) (win0_7.stage (cfg0.slots ⟨n + 1, hn⟩ 7)) (hstage0_7 ((cfg0.slots ⟨n + 1, hn⟩ 7).cast nbuf0_7)) (win0_8.stage (cfg0.slots ⟨n + 1, hn⟩ 8)) (hstage0_8 ((cfg0.slots ⟨n + 1, hn⟩ 8).cast nbuf0_8)) (win0_9.stage (cfg0.slots ⟨n + 1, hn⟩ 9)) (hstage0_9 ((cfg0.slots ⟨n + 1, hn⟩ 9).cast nbuf0_9)) (win0_10.stage (cfg0.slots ⟨n + 1, hn⟩ 10)) (hstage0_10 ((cfg0.slots ⟨n + 1, hn⟩ 10).cast nbuf0_10)) (win0_11.stage (cfg0.slots ⟨n + 1, hn⟩ 11)) (hstage0_11 ((cfg0.slots ⟨n + 1, hn⟩ 11).cast nbuf0_11)) (win0_12.stage (cfg0.slots ⟨n + 1, hn⟩ 12)) (hstage0_12 ((cfg0.slots ⟨n + 1, hn⟩ 12).cast nbuf0_12)) (win0_13.stage (cfg0.slots ⟨n + 1, hn⟩ 13)) (hstage0_13 ((cfg0.slots ⟨n + 1, hn⟩ 13).cast nbuf0_13)) (win0_14.stage (cfg0.slots ⟨n + 1, hn⟩ 14)) (hstage0_14 ((cfg0.slots ⟨n + 1, hn⟩ 14).cast nbuf0_14)) (win0_15.stage (cfg0.slots ⟨n + 1, hn⟩ 15)) (hstage0_15 ((cfg0.slots ⟨n + 1, hn⟩ 15).cast nbuf0_15)) (win0_16.stage (cfg0.slots ⟨n + 1, hn⟩ 16)) (hstage0_16 ((cfg0.slots ⟨n + 1, hn⟩ 16).cast nbuf0_16)) (win0_17.stage (cfg0.slots ⟨n + 1, hn⟩ 17)) (hstage0_17 ((cfg0.slots ⟨n + 1, hn⟩ 17).cast nbuf0_17)) (win0_18.stage (cfg0.slots ⟨n + 1, hn⟩ 18)) (hstage0_18 ((cfg0.slots ⟨n + 1, hn⟩ 18).cast nbuf0_18)) (win0_19.stage (cfg0.slots ⟨n + 1, hn⟩ 19)) (hstage0_19 ((cfg0.slots ⟨n + 1, hn⟩ 19).cast nbuf0_19)) (win0_20.stage (cfg0.slots ⟨n + 1, hn⟩ 20)) (hstage0_20 ((cfg0.slots ⟨n + 1, hn⟩ 20).cast nbuf0_20)) (win0_21.stage (cfg0.slots ⟨n + 1, hn⟩ 21)) (hstage0_21 ((cfg0.slots ⟨n + 1, hn⟩ 21).cast nbuf0_21)) (win0_22.stage (cfg0.slots ⟨n + 1, hn⟩ 22)) (hstage0_22 ((cfg0.slots ⟨n + 1, hn⟩ 22).cast nbuf0_22)) (win0_23.stage (cfg0.slots ⟨n + 1, hn⟩ 23)) (hstage0_23 ((cfg0.slots ⟨n + 1, hn⟩ 23).cast nbuf0_23)) (win0_24.stage (cfg0.slots ⟨n + 1, hn⟩ 24)) (hstage0_24 ((cfg0.slots ⟨n + 1, hn⟩ 24).cast nbuf0_24)) (win0_25.stage (cfg0.slots ⟨n + 1, hn⟩ 25)) (hstage0_25 ((cfg0.slots ⟨n + 1, hn⟩ 25).cast nbuf0_25)) (fun h => Nat.succ_ne_zero n ((hcond1 ⟨n + 1, hn⟩).mp h)) ((hcond2 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt c n (Nat.lt_of_succ_lt hn))

theorem outsAt_A (c : Dev nD) (t : Fin cfg0.N) (h0 : t.val = 0) :
    outsAt m c t.val t.isLt = outA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by
  obtain ⟨n, hn⟩ := t
  cases n with
  | zero => exact rfl
  | succ n => exact absurd h0 (Nat.succ_ne_zero n)

theorem outsAt_B (c : Dev nD) (t : Fin cfg0.N) (h0 : t.val ≠ 0) :
    outsAt m c t.val t.isLt = outB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt m c (t.val - 1) (Nat.lt_of_le_of_lt (Nat.sub_le _ _) t.isLt)) := by
  obtain ⟨n, hn⟩ := t
  cases n with
  | zero => exact absurd rfl h0
  | succ n => exact rfl

/-- The pipeline's proof data on core `c`. The three weight matrices are each read through eight windows: each window
    holds an eighth of its array's full share (three halvings); x and the output are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => outsAt m c t.val t.isLt
    | ⟨_ + 26, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare.left.left.left
    | ⟨2, _⟩ => fullShare.left.left.right
    | ⟨3, _⟩ => fullShare.left.right.left
    | ⟨4, _⟩ => fullShare.left.right.right
    | ⟨5, _⟩ => fullShare.right.left.left
    | ⟨6, _⟩ => fullShare.right.left.right
    | ⟨7, _⟩ => fullShare.right.right.left
    | ⟨8, _⟩ => fullShare.right.right.right
    | ⟨9, _⟩ => fullShare.left.left.left
    | ⟨10, _⟩ => fullShare.left.left.right
    | ⟨11, _⟩ => fullShare.left.right.left
    | ⟨12, _⟩ => fullShare.left.right.right
    | ⟨13, _⟩ => fullShare.right.left.left
    | ⟨14, _⟩ => fullShare.right.left.right
    | ⟨15, _⟩ => fullShare.right.right.left
    | ⟨16, _⟩ => fullShare.right.right.right
    | ⟨17, _⟩ => fullShare.left.left.left
    | ⟨18, _⟩ => fullShare.left.left.right
    | ⟨19, _⟩ => fullShare.left.right.left
    | ⟨20, _⟩ => fullShare.left.right.right
    | ⟨21, _⟩ => fullShare.right.left.left
    | ⟨22, _⟩ => fullShare.right.left.right
    | ⟨23, _⟩ => fullShare.right.right.left
    | ⟨24, _⟩ => fullShare.right.right.right
    | ⟨25, _⟩ => fullShare
    | ⟨_ + 26, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = outsAt m c t.val t.isLt := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)

/-- The output window is stored into at every grid point (at the first by the first branch, at the others by the second). -/
theorem idle25 : ∀ i : grid0.Coords, cfg0.idle 25 i = false := by decide +kernel

/-- At a later point the output block's buffer holds what the body left at the point before: it is not written back
    between (only after the last point). -/
theorem before_25_B (c : Dev nD) (t : Fin cfg0.N) (h0 : t.val ≠ 0) (d) :
    (dats m 0 c).before 25 t d = outsAt m c (t.val - 1) (Nat.lt_of_le_of_lt (Nat.sub_le _ _) t.isLt) := by
  have hN : t.val < 4 := lt_of_lt_of_eq t.isLt (show cfg0.N = 4 from N_0)
  rw [Dat.before_out_kept _ 25 rfl t h0 (Bool.eq_false_iff.mpr fun h => by have := (flush0_25 _).mp h; dsimp only at this; omega)
    idle25 (fun _ _ => rfl)]
  dsimp only [dats]

end Cert.KernelIdeal.Hand

end
-- ==== Proof.FrameBody.lean ====
/-
  The kernel body at a generic grid point: handed the point's input blocks and (after the first point) the running
  output block, it leaves the inputs in place and the output block at the next running value.
-/
import proofs.«128006_g77111842832762_cont_sun_m_58_34_alg».proof.Proof.FrameOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  by_cases h0 : t.val = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRunA c (grid0.coords t) _ _ _ _ _ _ _ _ _ _ _ _ _ _ _ _ _ _ _ _ _ _ _ _ _ _ _ _ _ _ _ _ _ _ _ _ _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    iintro ⟨H0, H1, H2, H3, H4, H5, H6, H7, H8, H9, H10, H11, H12, H13, H14, H15, H16, H17, H18, H19, H20, H21, H22, H23, H24, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverA c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt_B m c t h0]
    simp only [before_25_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRunB c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iintro ⟨H0, H1, H2, H3, H4, H5, H6, H7, H8, H9, H10, H11, H12, H13, H14, H15, H16, H17, H18, H19, H20, H21, H22, H23, H24, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverB c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Hand

end
-- ==== Proof.FrameObl.lean ====
/-
  The pipeline's body obligation at every point, from the body's triple at a generic point.
-/
import proofs.«128006_g77111842832762_cont_sun_m_58_34_alg».proof.Proof.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats (F := F) m 0 c) (defs₀ (F := F)) Variants.none () Set.univ := fun t => by
  rw [bigSep_W0, bigSep_W0]
  simp only [show ∀ i : grid0.Coords, idle0 25 i = false from idle25]
  exact sound_body m c t

end Cert.KernelIdeal.Hand

end
-- ==== Proof.FrameSplit.lean ====
/-
  Dealing the arrays among the windows: x and the result are each one window's; each weight matrix's full share is
  halved three times, one eighth to each of the eight windows that read it.
-/
import proofs.«128006_g77111842832762_cont_sun_m_58_34_alg».proof.Proof.FrameOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed. -/
theorem arrBufs_eq (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = bigSepL [main_arg0, main_arg1, main_arg2, main_arg3, main_v0] fun b => ((c.tc : Thread nD τ).loc b) ↦{fullShare} V' b := by
  unfold Pipeline.arrBufs; exact bigSep_eq_bigSepL_of_eq _ (by decide) (by decide) _

set_option maxHeartbeats 2000000 in
/-- Dealing the arrays among the windows: each weight matrix's full share is halved three times, one eighth per window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [show (bigSep Finset.univ fun w : Fin cfg0.W => ((cfg0.win w).arr.view.loc (c.tc : Thread nD τ) ↦[(cfg0.win w).arr.view.set]{(dats m 0 c).share w} (dats m 0 c).arrAt w 0 : sProp 𝕄))
      = bigSep Finset.univ fun w : Fin cfg0.W => (((c.tc : Thread nD τ).loc (Pipeline.arrRef spec0 w)) ↦{(dats m 0 c).share w} V m c (Pipeline.arrRef spec0 w) : sProp 𝕄)
      from bigSep_congr fun w _ => by rw [(arr_whole0 w).set_eq_univ]; rfl]
  rw [bigSep_W0]
  show (iprop(((c.tc : Thread nD τ).loc main_arg0 ↦{fullShare} V m c main_arg0) ∗ ((c.tc : Thread nD τ).loc main_arg1 ↦{fullShare} V m c main_arg1) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0)) : sProp 𝕄) ⊢ (iprop(((c.tc : Thread nD τ).loc main_arg0 ↦{fullShare} V m c main_arg0) ∗ ((c.tc : Thread nD τ).loc main_arg1 ↦{fullShare.left.left.left} V m c main_arg1) ∗ ((c.tc : Thread nD τ).loc main_arg1 ↦{fullShare.left.left.right} V m c main_arg1) ∗ ((c.tc : Thread nD τ).loc main_arg1 ↦{fullShare.left.right.left} V m c main_arg1) ∗ ((c.tc : Thread nD τ).loc main_arg1 ↦{fullShare.left.right.right} V m c main_arg1) ∗ ((c.tc : Thread nD τ).loc main_arg1 ↦{fullShare.right.left.left} V m c main_arg1) ∗ ((c.tc : Thread nD τ).loc main_arg1 ↦{fullShare.right.left.right} V m c main_arg1) ∗ ((c.tc : Thread nD τ).loc main_arg1 ↦{fullShare.right.right.left} V m c main_arg1) ∗ ((c.tc : Thread nD τ).loc main_arg1 ↦{fullShare.right.right.right} V m c main_arg1) ∗ ((c.tc : Thread nD τ).loc main_arg2 ↦{fullShare.left.left.left} V m c main_arg2) ∗ ((c.tc : Thread nD τ).loc main_arg2 ↦{fullShare.left.left.right} V m c main_arg2) ∗ ((c.tc : Thread nD τ).loc main_arg2 ↦{fullShare.left.right.left} V m c main_arg2) ∗ ((c.tc : Thread nD τ).loc main_arg2 ↦{fullShare.left.right.right} V m c main_arg2) ∗ ((c.tc : Thread nD τ).loc main_arg2 ↦{fullShare.right.left.left} V m c main_arg2) ∗ ((c.tc : Thread nD τ).loc main_arg2 ↦{fullShare.right.left.right} V m c main_arg2) ∗ ((c.tc : Thread nD τ).loc main_arg2 ↦{fullShare.right.right.left} V m c main_arg2) ∗ ((c.tc : Thread nD τ).loc main_arg2 ↦{fullShare.right.right.right} V m c main_arg2) ∗ ((c.tc : Thread nD τ).loc main_arg3 ↦{fullShare.left.left.left} V m c main_arg3) ∗ ((c.tc : Thread nD τ).loc main_arg3 ↦{fullShare.left.left.right} V m c main_arg3) ∗ ((c.tc : Thread nD τ).loc main_arg3 ↦{fullShare.left.right.left} V m c main_arg3) ∗ ((c.tc : Thread nD τ).loc main_arg3 ↦{fullShare.left.right.right} V m c main_arg3) ∗ ((c.tc : Thread nD τ).loc main_arg3 ↦{fullShare.right.left.left} V m c main_arg3) ∗ ((c.tc : Thread nD τ).loc main_arg3 ↦{fullShare.right.left.right} V m c main_arg3) ∗ ((c.tc : Thread nD τ).loc main_arg3 ↦{fullShare.right.right.left} V m c main_arg3) ∗ ((c.tc : Thread nD τ).loc main_arg3 ↦{fullShare.right.right.right} V m c main_arg3) ∗ ((c.tc : Thread nD τ).loc main_v0 ↦{fullShare} V m c main_v0)) : sProp 𝕄)
  iintro ⟨A0, A1, A2, A3, A4⟩
  ihave T := (pointsTo_share (PosShare.mem_left_op_right _)).1 $$ A1
  icases T with ⟨A1l, A1r⟩
  ihave T := (pointsTo_share (PosShare.mem_left_op_right _)).1 $$ A1l
  icases T with ⟨A1ll, A1lr⟩
  ihave T := (pointsTo_share (PosShare.mem_left_op_right _)).1 $$ A1r
  icases T with ⟨A1rl, A1rr⟩
  ihave T := (pointsTo_share (PosShare.mem_left_op_right _)).1 $$ A1ll
  icases T with ⟨A1lll, A1llr⟩
  ihave T := (pointsTo_share (PosShare.mem_left_op_right _)).1 $$ A1lr
  icases T with ⟨A1lrl, A1lrr⟩
  ihave T := (pointsTo_share (PosShare.mem_left_op_right _)).1 $$ A1rl
  icases T with ⟨A1rll, A1rlr⟩
  ihave T := (pointsTo_share (PosShare.mem_left_op_right _)).1 $$ A1rr
  icases T with ⟨A1rrl, A1rrr⟩
  ihave T := (pointsTo_share (PosShare.mem_left_op_right _)).1 $$ A2
  icases T with ⟨A2l, A2r⟩
  ihave T := (pointsTo_share (PosShare.mem_left_op_right _)).1 $$ A2l
  icases T with ⟨A2ll, A2lr⟩
  ihave T := (pointsTo_share (PosShare.mem_left_op_right _)).1 $$ A2r
  icases T with ⟨A2rl, A2rr⟩
  ihave T := (pointsTo_share (PosShare.mem_left_op_right _)).1 $$ A2ll
  icases T with ⟨A2lll, A2llr⟩
  ihave T := (pointsTo_share (PosShare.mem_left_op_right _)).1 $$ A2lr
  icases T with ⟨A2lrl, A2lrr⟩
  ihave T := (pointsTo_share (PosShare.mem_left_op_right _)).1 $$ A2rl
  icases T with ⟨A2rll, A2rlr⟩
  ihave T := (pointsTo_share (PosShare.mem_left_op_right _)).1 $$ A2rr
  icases T with ⟨A2rrl, A2rrr⟩
  ihave T := (pointsTo_share (PosShare.mem_left_op_right _)).1 $$ A3
  icases T with ⟨A3l, A3r⟩
  ihave T := (pointsTo_share (PosShare.mem_left_op_right _)).1 $$ A3l
  icases T with ⟨A3ll, A3lr⟩
  ihave T := (pointsTo_share (PosShare.mem_left_op_right _)).1 $$ A3r
  icases T with ⟨A3rl, A3rr⟩
  ihave T := (pointsTo_share (PosShare.mem_left_op_right _)).1 $$ A3ll
  icases T with ⟨A3lll, A3llr⟩
  ihave T := (pointsTo_share (PosShare.mem_left_op_right _)).1 $$ A3lr
  icases T with ⟨A3lrl, A3lrr⟩
  ihave T := (pointsTo_share (PosShare.mem_left_op_right _)).1 $$ A3rl
  icases T with ⟨A3rll, A3rlr⟩
  ihave T := (pointsTo_share (PosShare.mem_left_op_right _)).1 $$ A3rr
  icases T with ⟨A3rrl, A3rrr⟩
  isplitl [A0]; · iexact A0
  isplitl [A1lll]; · iexact A1lll
  isplitl [A1llr]; · iexact A1llr
  isplitl [A1lrl]; · iexact A1lrl
  isplitl [A1lrr]; · iexact A1lrr
  isplitl [A1rll]; · iexact A1rll
  isplitl [A1rlr]; · iexact A1rlr
  isplitl [A1rrl]; · iexact A1rrl
  isplitl [A1rrr]; · iexact A1rrr
  isplitl [A2lll]; · iexact A2lll
  isplitl [A2llr]; · iexact A2llr
  isplitl [A2lrl]; · iexact A2lrl
  isplitl [A2lrr]; · iexact A2lrr
  isplitl [A2rll]; · iexact A2rll
  isplitl [A2rlr]; · iexact A2rlr
  isplitl [A2rrl]; · iexact A2rrl
  isplitl [A2rrr]; · iexact A2rrr
  isplitl [A3lll]; · iexact A3lll
  isplitl [A3llr]; · iexact A3llr
  isplitl [A3lrl]; · iexact A3lrl
  isplitl [A3lrr]; · iexact A3lrr
  isplitl [A3rll]; · iexact A3rll
  isplitl [A3rlr]; · iexact A3rlr
  isplitl [A3rrl]; · iexact A3rrl
  isplitl [A3rrr]; · iexact A3rrr
  iexact A4

end Cert.KernelIdeal.Hand

end
-- ==== Proof.FrameRun.lean ====
/-
  THE RUN of the SwiGLU kernel: every weakly fair execution terminates, nothing faults, and each window's array ends
  at what the pipeline's write-backs make of it (an input array: its launch contents).
-/
import proofs.«128006_g77111842832762_cont_sun_m_58_34_alg».proof.Proof.FrameObl
import proofs.«128006_g77111842832762_cont_sun_m_58_34_alg».proof.Proof.FrameSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hX_ (c : Dev nD) : (Pipeline.unscopedRest (Ix := Unit) (Name := ℕ) (U := UR sig nD τ) (Lvl := ℕ) spec0 c (V m c) : sProp 𝕄)
    ⊢ iprop(emp ∗ Pipeline.unscopedRest (Ix := Unit) (Name := ℕ) (U := UR sig nD τ) (Lvl := ℕ) spec0 c (V m c)) := by
  iintro H
  isplitr
  · iempintro
  · iexact H

theorem hin_ (c : Dev nD) : (iprop(emp ∗ Pipeline.scopedRest (Ix := Unit) (Name := ℕ) (U := UR sig nD τ) (Lvl := ℕ) (Val := Elt F) spec0 c) : sProp 𝕄) ⊢ (dats m 0 c).Φ 0 := by
  show (iprop(emp ∗ Pipeline.scopedRest (Ix := Unit) (Name := ℕ) (U := UR sig nD τ) (Lvl := ℕ) (Val := Elt F) spec0 c) : sProp 𝕄) ⊢ (Pipeline.scopedRest (Ix := Unit) (Name := ℕ) (U := UR sig nD τ) (Lvl := ℕ) (Val := Elt F) spec0 c : sProp 𝕄)
  iintro ⟨-, H⟩
  iexact H

theorem hout_ (c : Dev nD) : (dats m 0 c).Φ (Fin.last cfg0.N) ⊢ (iprop(emp ∗ Pipeline.scopedRest (Ix := Unit) (Name := ℕ) (U := UR sig nD τ) (Lvl := ℕ) (Val := Elt F) spec0 c) : sProp 𝕄) := by
  show (Pipeline.scopedRest (Ix := Unit) (Name := ℕ) (U := UR sig nD τ) (Lvl := ℕ) (Val := Elt F) spec0 c : sProp 𝕄) ⊢ (iprop(emp ∗ Pipeline.scopedRest (Ix := Unit) (Name := ℕ) (U := UR sig nD τ) (Lvl := ℕ) (Val := Elt F) spec0 c) : sProp 𝕄)
  iintro H
  isplitr
  · iempintro
  · iexact H

theorem hY_ (c : Dev nD) (s' : Phys nD τ sig (Elt F)) :
    (iprop(emp ∗ Pipeline.unscopedRest (Ix := Unit) (Name := ℕ) (U := UR sig nD τ) (Lvl := ℕ) spec0 c (V m c) ∗ SI s') : sProp 𝕄) ⊢ |={Set.univ}=> iprop(⌜True⌝ ∗ SI s') := by
  iintro ⟨-, -, HSI⟩
  imodintro
  isplitr
  · ipureintro; trivial
  · iexact HSI

set_option backward.isDefEq.respectTransparency.types false in
/-- THE RUN: from any memory with zero counters every weakly fair execution terminates, nothing faulting, each window's
    array ending at what the proof data's write-backs make of it. -/
theorem run_main : θ_run defs (onTc (τ := τ) (main (F := F))) ⟨m, fun _ => 0, ρ⟩ (fun r => ∀ c : Dev nD,
      ∀ w : Fin cfg0.W, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun c => Pipeline.unscopedRest (Ix := Unit) (Name := ℕ) (U := UR sig nD τ) (Lvl := ℕ) spec0 c (V m c))
    (hX := hX_ m) (hin := hin_ m) (hout := hout_ m)
    (QY := fun _ _ => True) (hY := hY_ m)
    (hQ := fun s h c w => (h c).1 w)

/-- THE FRAME: the four argument arrays end as they were launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 1).trans (((dats m 0 c).arrAt_in 1 rfl _).trans (A_eq m c 1)),
     (h c 9).trans (((dats m 0 c).arrAt_in 9 rfl _).trans (A_eq m c 9)),
     (h c 17).trans (((dats m 0 c).arrAt_in 17 rfl _).trans (A_eq m c 17))⟩) (run_main m ρ)

end Cert.KernelIdeal.Hand

end
-- ==== Proof.Blocks.lean ====
/-
  The blocks the body loads at a grid point, gathered as three families of eight (the row-slabs of W_gate, of W_up and
  of W_down), so that one point's arithmetic is one function of x and three families.
-/
import proofs.«128006_g77111842832762_cont_sun_m_58_34_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight row-slabs of W_gate the body loads at point `t`. -/
def gBlk (c : Dev nD) (t : Fin cfg0.N) : Fin 8 → Vec F S256x512 .f32 := fun q => match q with
  | ⟨0, _⟩ => iblk m c 1 t
  | ⟨1, _⟩ => iblk m c 2 t
  | ⟨2, _⟩ => iblk m c 3 t
  | ⟨3, _⟩ => iblk m c 4 t
  | ⟨4, _⟩ => iblk m c 5 t
  | ⟨5, _⟩ => iblk m c 6 t
  | ⟨6, _⟩ => iblk m c 7 t
  | ⟨7, _⟩ => iblk m c 8 t

/-- The eight row-slabs of W_up the body loads at point `t`. -/
def uBlk (c : Dev nD) (t : Fin cfg0.N) : Fin 8 → Vec F S256x512 .f32 := fun q => match q with
  | ⟨0, _⟩ => iblk m c 9 t
  | ⟨1, _⟩ => iblk m c 10 t
  | ⟨2, _⟩ => iblk m c 11 t
  | ⟨3, _⟩ => iblk m c 12 t
  | ⟨4, _⟩ => iblk m c 13 t
  | ⟨5, _⟩ => iblk m c 14 t
  | ⟨6, _⟩ => iblk m c 15 t
  | ⟨7, _⟩ => iblk m c 16 t

/-- The eight row-slabs of W_down the body loads at point `t`. -/
def dBlk (c : Dev nD) (t : Fin cfg0.N) : Fin 8 → Vec F S64x2048 .f32 := fun q => match q with
  | ⟨0, _⟩ => iblk m c 17 t
  | ⟨1, _⟩ => iblk m c 18 t
  | ⟨2, _⟩ => iblk m c 19 t
  | ⟨3, _⟩ => iblk m c 20 t
  | ⟨4, _⟩ => iblk m c 21 t
  | ⟨5, _⟩ => iblk m c 22 t
  | ⟨6, _⟩ => iblk m c 23 t
  | ⟨7, _⟩ => iblk m c 24 t

end Cert.KernelIdeal.Hand

end
-- ==== Proof.Contrib.lean ====
/-
  One grid point's arithmetic as ONE function of the blocks the body loads: x whole, eight row-slabs of W_gate and of
  W_up on the point's run of 512 intermediate columns, eight row-slabs of W_down on the same run of rows. It is the
  composition of the body's payloads in the order the body computes them — the value the body stores into the output
  block at the first point and adds to it at every later one.
-/
import proofs.«128006_g77111842832762_cont_sun_m_58_34_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The contribution of one grid point: act · W_down-slabs, summed over the eight slabs, from the loaded blocks. -/
def contrib (x : Vec F S32x2048 .f32) (g u : Fin 8 → Vec F S256x512 .f32) (d : Fin 8 → Vec F S64x2048 .f32) : FVec F S32x2048 .f32 :=
  k0_pay1
    (k0_pay9 x (k0_pay6 x (g 0) (g 1) (g 2) (g 3)) (k0_pay7 x (u 0) (u 1) (u 2) (u 3)) (k0_pay8 x) (g 4) (constant S32x512 .f32 0x00000000#32) (u 4) (g 5) (u 5) (g 6) (u 6) (g 7) (u 7))
    (k0_pay10 x (k0_pay6 x (g 0) (g 1) (g 2) (g 3)) (k0_pay7 x (u 0) (u 1) (u 2) (u 3)) (k0_pay8 x) (g 4) (constant S32x512 .f32 0x00000000#32) (u 4) (g 5) (u 5) (g 6) (u 6) (g 7) (u 7) (d 0))
    (k0_pay11 x (k0_pay6 x (g 0) (g 1) (g 2) (g 3)) (k0_pay7 x (u 0) (u 1) (u 2) (u 3)) (k0_pay8 x) (g 4) (constant S32x512 .f32 0x00000000#32) (u 4) (g 5) (u 5) (g 6) (u 6) (g 7) (u 7))
    (d 1) (d 2) (d 3) (d 4) (d 5) (d 6) (d 7)

end Cert.KernelIdeal.Hand

end
-- ==== Proof.OutStep.lean ====
/-
  What the body leaves in the output block, point by point, as values. At the first grid point the body stores the
  point's contribution `contrib x g u d` (of the blocks it loads there) over the whole block; at every later point it
  loads the block, and stores it back with the point's contribution added. So the block holds
      c_0   after point 0,      (held after point n) + c_{n+1}   after point n + 1,
  the running sum of the contributions in point order. Each case reads the one covering store the symbolic run of the
  body found: a store over the whole block leaves its payload, and a load of a whole buffer reads the block it holds.
-/
import proofs.«128006_g77111842832762_cont_sun_m_58_34_alg».proof.Proof.FrameOut
import proofs.«128006_g77111842832762_cont_sun_m_58_34_alg».proof.Proof.Blocks
import proofs.«128006_g77111842832762_cont_sun_m_58_34_alg».proof.Proof.Contrib
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Eight values as a family over the eight slab positions. -/
def fam {α : Type} (a0 a1 a2 a3 a4 a5 a6 a7 : α) : Fin 8 → α := fun q => match q with
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7

/-- The eight slabs of the first weight matrix at a point, listed. -/
theorem gBlk_fam (c : Dev nD) (t : Fin cfg0.N) : gBlk m c t = fam (iblk m c 1 t) (iblk m c 2 t) (iblk m c 3 t) (iblk m c 4 t) (iblk m c 5 t) (iblk m c 6 t) (iblk m c 7 t) (iblk m c 8 t) := by
  funext q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The eight slabs of the second weight matrix at a point, listed. -/
theorem uBlk_fam (c : Dev nD) (t : Fin cfg0.N) : uBlk m c t = fam (iblk m c 9 t) (iblk m c 10 t) (iblk m c 11 t) (iblk m c 12 t) (iblk m c 13 t) (iblk m c 14 t) (iblk m c 15 t) (iblk m c 16 t) := by
  funext q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The eight slabs of the third weight matrix at a point, listed. -/
theorem dBlk_fam (c : Dev nD) (t : Fin cfg0.N) : dBlk m c t = fam (iblk m c 17 t) (iblk m c 18 t) (iblk m c 19 t) (iblk m c 20 t) (iblk m c 21 t) (iblk m c 22 t) (iblk m c 23 t) (iblk m c 24 t) := by
  funext q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem hz : (![0, 0] : Fin 2 → Nat) = fun _ => 0 := funext fun a => by fin_cases a <;> rfl

/-- The first point: the body stores its contribution over the whole output block. -/
theorem outA_eq (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : k0_cond1 i = 1#1) (hc2 : ¬ k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) :
    outA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24
      = contrib x0 (fam x1 x2 x3 x4 x5 x6 x7 x8) (fam x9 x10 x11 x12 x13 x14 x15 x16) (fam x17 x18 x19 x20 x21 x22 x23 x24) := by
  unfold outA
  rw [View.read_writes_eq_canon _ _ _ (coverA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24)]
  unfold kernelRunA
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S32x2048) hz, View.ld_unit_zero (S := S256x512) hz, View.ld_unit_zero (S := S64x2048) hz, shapeCast_self]
  rfl

/-- A later point: the body loads the output block and stores it back with its contribution added. -/
theorem outB_eq (c : Dev nD) (i : grid0.Coords) (arg1 : Memref sig .tc .vmem S32x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S64x2048 .f32) (harg18 : arg18.IsWhole) (arg19 : Memref sig .tc .vmem S64x2048 .f32) (harg19 : arg19.IsWhole) (arg20 : Memref sig .tc .vmem S64x2048 .f32) (harg20 : arg20.IsWhole) (arg21 : Memref sig .tc .vmem S64x2048 .f32) (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32) (harg24 : arg24.IsWhole) (arg25 : Memref sig .tc .vmem S64x2048 .f32) (harg25 : arg25.IsWhole) (arg26 : Memref sig .tc .vmem S32x2048 .f32) (harg26 : arg26.IsWhole) (hc1 : ¬ k0_cond1 i = 1#1) (hc2 : k0_cond2 i = 1#1)
    (x0 : Vec F S32x2048 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x512 .f32) (x10 : Vec F S256x512 .f32) (x11 : Vec F S256x512 .f32) (x12 : Vec F S256x512 .f32) (x13 : Vec F S256x512 .f32) (x14 : Vec F S256x512 .f32) (x15 : Vec F S256x512 .f32) (x16 : Vec F S256x512 .f32) (x17 : Vec F S64x2048 .f32) (x18 : Vec F S64x2048 .f32) (x19 : Vec F S64x2048 .f32) (x20 : Vec F S64x2048 .f32) (x21 : Vec F S64x2048 .f32) (x22 : Vec F S64x2048 .f32) (x23 : Vec F S64x2048 .f32) (x24 : Vec F S64x2048 .f32) (xo : Vec F S32x2048 .f32) :
    outB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo
      = addf xo (contrib x0 (fam x1 x2 x3 x4 x5 x6 x7 x8) (fam x9 x10 x11 x12 x13 x14 x15 x16) (fam x17 x18 x19 x20 x21 x22 x23 x24)) := by
  unfold outB
  rw [View.read_writes_eq_canon _ _ _ (coverB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 x0 x1 x2 x3 x4 x5 x6 x7 x8 x9 x10 x11 x12 x13 x14 x15 x16 x17 x18 x19 x20 x21 x22 x23 x24 xo)]
  unfold kernelRunB
  dsimp only
  sl_unfold_words
  rw [View.canon_unit_zero hz]
  unfold k0_pay2
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S32x2048) hz, View.ld_unit_zero (S := S256x512) hz, View.ld_unit_zero (S := S64x2048) hz, shapeCast_self]
  rfl

/-- After the first point the output block holds that point's contribution. -/
theorem outsAt_zero (c : Dev nD) (h : 0 < cfg0.N) :
    outsAt m c 0 h = contrib (iblk m c 0 ⟨0, h⟩) (gBlk m c ⟨0, h⟩) (uBlk m c ⟨0, h⟩) (dBlk m c ⟨0, h⟩) := by
  rw [gBlk_fam, uBlk_fam, dBlk_fam]
  exact (outsAt_A m c ⟨0, h⟩ rfl).trans (outA_eq ..)

/-- After a later point it holds what it held after the point before plus that point's contribution. -/
theorem outsAt_succ (c : Dev nD) (n : ℕ) (h : n + 1 < cfg0.N) :
    outsAt m c (n + 1) h = addf (outsAt m c n (Nat.lt_of_succ_lt h))
      (contrib (iblk m c 0 ⟨n + 1, h⟩) (gBlk m c ⟨n + 1, h⟩) (uBlk m c ⟨n + 1, h⟩) (dBlk m c ⟨n + 1, h⟩)) := by
  rw [gBlk_fam, uBlk_fam, dBlk_fam]
  exact (outsAt_B m c ⟨n + 1, h⟩ (Nat.succ_ne_zero n)).trans (outB_eq ..)

end Cert.KernelIdeal.Hand

end
-- ==== Proof.Spec.lean ====
/-
  THE SPECIFICATION. A SwiGLU feed-forward block on extended reals:
      out[p, h] = Σ_n act[p, n] · W_down[n, h],   act[p, n] = gate[p, n] · σ(gate[p, n]) · up[p, n],
      gate = x · W_gate,  up = x · W_up,          σ(g) = 1 / (1 + e^(-g)),
  for x of 32 rows and 2048 columns and three 2048 × 2048 weight matrices. Two arrangements of it are stated here.
  `G` is the plain one: every product a single sum over its 2048 contracted entries. `contribB` is one grid point's share in
  the blocked one: the 2048 intermediate columns are cut into four runs of 512 (one per grid point); within a run the
  products x · W_gate and x · W_up are accumulated over eight row-slabs of 256, and the product with W_down over eight
  row-slabs of 64, each time by a left-nested sum of eight terms. The two arrangements differ by regrouping finite
  sums only, which the extended reals allow (addition there is commutative and associative).
-/
import Idealize.ShloMosaic.PureOps.Ideal
import Idealize.ShloMosaic.Lib.ValueIdx

noncomputable section

open scoped BigOperators

namespace Cert.Mlp

open Idealize.ShloMosaic Idealize.ShloMosaic.ValueIdx

/-- The activations' and the result's shape. -/
abbrev SX : Shape := ⟨2, ![32, 2048]⟩
/-- A weight matrix's shape. -/
abbrev SW : Shape := ⟨2, ![2048, 2048]⟩
/-- A row-slab of W_gate or W_up restricted to one run of 512 columns. -/
abbrev SG : Shape := ⟨2, ![256, 512]⟩
/-- A row-slab of W_down. -/
abbrev SD : Shape := ⟨2, ![64, 2048]⟩

/-! ## The plain arrangement -/

/-- (x · w)[p, n]. -/
def proj (x : SX.Idx → EReal) (w : SW.Idx → EReal) (p : Fin 32) (n : Fin 2048) : EReal :=
  ∑ k : Fin 2048, x (ix2 p k) * w (ix2 k n)

/-- act[p, n] = gate · σ(gate) · up. -/
def act (x : SX.Idx → EReal) (wg wu : SW.Idx → EReal) (p : Fin 32) (n : Fin 2048) : EReal :=
  proj x wg p n * Ideal.logistic (proj x wg p n) * proj x wu p n

/-- The result at (p, h). -/
def Gat (x : SX.Idx → EReal) (wg wu wd : SW.Idx → EReal) (p : Fin 32) (h : Fin 2048) : EReal :=
  ∑ n : Fin 2048, act x wg wu p n * wd (ix2 n h)

/-- The result array. -/
def G (x : SX.Idx → EReal) (wg wu wd : SW.Idx → EReal) : SX.Idx → EReal := fun i => Gat x wg wu wd (i 0) (i 1)

theorem G_ix2 (x : SX.Idx → EReal) (wg wu wd : SW.Idx → EReal) (p : Fin 32) (h : Fin 2048) :
    G x wg wu wd (ix2 p h) = Gat x wg wu wd p h := rfl

/-! ## The blocked arrangement -/

/-- Eight terms added from the left, in order. -/
def sum8 (f : Fin 8 → EReal) : EReal := f 0 + f 1 + f 2 + f 3 + f 4 + f 5 + f 6 + f 7

/-- Entry `k` of the `q`-th run of 256 among 2048. -/
def col (q : Fin 8) (k : Fin 256) : Fin 2048 := ⟨256 * q.val + k.val, by omega⟩

/-- Entry `k` of the `q`-th run of 64 among 512. -/
def lane (q : Fin 8) (k : Fin 64) : Fin 512 := ⟨64 * q.val + k.val, by omega⟩

/-- (x · w)[p, j] within one run of 512 columns, from the eight row-slabs `g q` of `w` on that run. -/
def projB (x : SX.Idx → EReal) (g : Fin 8 → SG.Idx → EReal) (p : Fin 32) (j : Fin 512) : EReal :=
  sum8 fun q => ∑ k : Fin 256, x (ix2 p (col q k)) * g q (ix2 k j)

/-- act[p, j] within one run, from the slabs of W_gate and W_up. -/
def actB (x : SX.Idx → EReal) (g u : Fin 8 → SG.Idx → EReal) (p : Fin 32) (j : Fin 512) : EReal :=
  projB x g p j * Ideal.logistic (projB x g p j) * projB x u p j

/-- One run's contribution to the result at (p, h), from the eight row-slabs `d q` of W_down on that run. -/
def contribB (x : SX.Idx → EReal) (g u : Fin 8 → SG.Idx → EReal) (d : Fin 8 → SD.Idx → EReal) (p : Fin 32) (h : Fin 2048) : EReal :=
  sum8 fun q => ∑ k : Fin 64, actB x g u p (lane q k) * d q (ix2 k h)

/-- Row-slab `q` of `w` (rows 256 q … 256 q + 255) on run `t` of the columns (512 t … 512 t + 511). -/
def slabG (w : SW.Idx → EReal) (t : Fin 4) (q : Fin 8) : SG.Idx → EReal := fun i =>
  w (ix2 (col q (i 0)) (⟨512 * t.val + (i 1).val, by have := idx2_lt1 i; omega⟩ : Fin 2048))

/-- Row-slab `q` of run `t` of the rows of `w` (rows 512 t + 64 q … + 63), all columns. -/
def slabD (w : SW.Idx → EReal) (t : Fin 4) (q : Fin 8) : SD.Idx → EReal := fun i =>
  w (ix2 (⟨512 * t.val + 64 * q.val + (i 0).val, by have := idx2_lt0 i; omega⟩ : Fin 2048) (i 1))

/-- One grid point's contribution, from the whole matrices. -/
def contribAt (x : SX.Idx → EReal) (wg wu wd : SW.Idx → EReal) (t : Fin 4) (p : Fin 32) (h : Fin 2048) : EReal :=
  contribB x (slabG wg t) (slabG wu t) (slabD wd t) p h

end Cert.Mlp

end
-- ==== Proof.BlockReads.lean ====
/-
  The blocks the body loads at a grid point, read off the whole arrays: x whole; the eight row-slabs of W_gate and of
  W_up on the point's run of 512 columns; the eight row-slabs of W_down on the point's run of 512 rows. Each is one
  equation between a window's block and the corresponding slab of the specification, index by index.
-/
import proofs.«128006_g77111842832762_cont_sun_m_58_34_alg».proof.Proof.Blocks
import proofs.«128006_g77111842832762_cont_sun_m_58_34_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-- The grid point as a number below four. -/
abbrev pt (t : Fin cfg0.N) : Fin 4 := t.cast Gen.N_0

/-! ## The index maps, decided over the grid

Window 0 sits at block (0, 0) at every point; window 1 + q (a slab of W_gate) and window 9 + q (of W_up) at block
(q, t); window 17 + q (a slab of W_down) at block (8 t + q, 0). -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 1 ∧ win0_2.index t (1 : Fin 2) = t.val :=
  (by decide +kernel : ∀ t : Fin grid0.N, _)
theorem idx3 : ∀ t : Fin cfg0.N, win0_3.index t (0 : Fin 2) = 2 ∧ win0_3.index t (1 : Fin 2) = t.val :=
  (by decide +kernel : ∀ t : Fin grid0.N, _)
theorem idx4 : ∀ t : Fin cfg0.N, win0_4.index t (0 : Fin 2) = 3 ∧ win0_4.index t (1 : Fin 2) = t.val :=
  (by decide +kernel : ∀ t : Fin grid0.N, _)
theorem idx5 : ∀ t : Fin cfg0.N, win0_5.index t (0 : Fin 2) = 4 ∧ win0_5.index t (1 : Fin 2) = t.val :=
  (by decide +kernel : ∀ t : Fin grid0.N, _)
theorem idx6 : ∀ t : Fin cfg0.N, win0_6.index t (0 : Fin 2) = 5 ∧ win0_6.index t (1 : Fin 2) = t.val :=
  (by decide +kernel : ∀ t : Fin grid0.N, _)
theorem idx7 : ∀ t : Fin cfg0.N, win0_7.index t (0 : Fin 2) = 6 ∧ win0_7.index t (1 : Fin 2) = t.val :=
  (by decide +kernel : ∀ t : Fin grid0.N, _)
theorem idx8 : ∀ t : Fin cfg0.N, win0_8.index t (0 : Fin 2) = 7 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 1 ∧ win0_10.index t (1 : Fin 2) = t.val :=
  (by decide +kernel : ∀ t : Fin grid0.N, _)
theorem idx11 : ∀ t : Fin cfg0.N, win0_11.index t (0 : Fin 2) = 2 ∧ win0_11.index t (1 : Fin 2) = t.val :=
  (by decide +kernel : ∀ t : Fin grid0.N, _)
theorem idx12 : ∀ t : Fin cfg0.N, win0_12.index t (0 : Fin 2) = 3 ∧ win0_12.index t (1 : Fin 2) = t.val :=
  (by decide +kernel : ∀ t : Fin grid0.N, _)
theorem idx13 : ∀ t : Fin cfg0.N, win0_13.index t (0 : Fin 2) = 4 ∧ win0_13.index t (1 : Fin 2) = t.val :=
  (by decide +kernel : ∀ t : Fin grid0.N, _)
theorem idx14 : ∀ t : Fin cfg0.N, win0_14.index t (0 : Fin 2) = 5 ∧ win0_14.index t (1 : Fin 2) = t.val :=
  (by decide +kernel : ∀ t : Fin grid0.N, _)
theorem idx15 : ∀ t : Fin cfg0.N, win0_15.index t (0 : Fin 2) = 6 ∧ win0_15.index t (1 : Fin 2) = t.val :=
  (by decide +kernel : ∀ t : Fin grid0.N, _)
theorem idx16 : ∀ t : Fin cfg0.N, win0_16.index t (0 : Fin 2) = 7 ∧ win0_16.index t (1 : Fin 2) = t.val :=
  (by decide +kernel : ∀ t : Fin grid0.N, _)
theorem idx17 : ∀ t : Fin cfg0.N, win0_17.index t (0 : Fin 2) = 8 * t.val + 0 ∧ win0_17.index t (1 : Fin 2) = 0 :=
  (by decide +kernel : ∀ t : Fin grid0.N, _)
theorem idx18 : ∀ t : Fin cfg0.N, win0_18.index t (0 : Fin 2) = 8 * t.val + 1 ∧ win0_18.index t (1 : Fin 2) = 0 :=
  (by decide +kernel : ∀ t : Fin grid0.N, _)
theorem idx19 : ∀ t : Fin cfg0.N, win0_19.index t (0 : Fin 2) = 8 * t.val + 2 ∧ win0_19.index t (1 : Fin 2) = 0 :=
  (by decide +kernel : ∀ t : Fin grid0.N, _)
theorem idx20 : ∀ t : Fin cfg0.N, win0_20.index t (0 : Fin 2) = 8 * t.val + 3 ∧ win0_20.index t (1 : Fin 2) = 0 :=
  (by decide +kernel : ∀ t : Fin grid0.N, _)
theorem idx21 : ∀ t : Fin cfg0.N, win0_21.index t (0 : Fin 2) = 8 * t.val + 4 ∧ win0_21.index t (1 : Fin 2) = 0 :=
  (by decide +kernel : ∀ t : Fin grid0.N, _)
theorem idx22 : ∀ t : Fin cfg0.N, win0_22.index t (0 : Fin 2) = 8 * t.val + 5 ∧ win0_22.index t (1 : Fin 2) = 0 :=
  (by decide +kernel : ∀ t : Fin grid0.N, _)
theorem idx23 : ∀ t : Fin cfg0.N, win0_23.index t (0 : Fin 2) = 8 * t.val + 6 ∧ win0_23.index t (1 : Fin 2) = 0 :=
  (by decide +kernel : ∀ t : Fin grid0.N, _)
theorem idx24 : ∀ t : Fin cfg0.N, win0_24.index t (0 : Fin 2) = 8 * t.val + 7 ∧ win0_24.index t (1 : Fin 2) = 0 :=
  (by decide +kernel : ∀ t : Fin grid0.N, _)

/-! ## Each window's block, read off its array

An element of a block sits in the array, on each axis, at the block index times the block's size plus its own
coordinate. -/

/-- Window 0's block is the whole of x at every point. -/
theorem blk0_eq (c : Dev nD) (t : Fin cfg0.N) :
    (iblk m c 0 t : Cert.Mlp.SX.Idx → EReal) = V m c main_arg0 := by
  funext y
  obtain ⟨e0, e1⟩ := idx0 t
  unfold iblk
  rw [View.read_apply]
  show V m c main_arg0 (((cfg0.win 0).blk t).view.emb y) = V m c main_arg0 y
  refine congrArg _ (funext fun a => Fin.ext ?_)
  match a with
  | ⟨0, _⟩ => show win0_0.index t (0 : Fin 2) * 32 + 1 * (y 0).val = (y 0).val; omega
  | ⟨1, _⟩ => show win0_0.index t (1 : Fin 2) * 2048 + 1 * (y 1).val = (y 1).val; omega

/-- Window 1's block at point t is row-slab 0 of W_gate on run t of the columns. -/
theorem blk1_eq (c : Dev nD) (t : Fin cfg0.N) :
    (iblk m c 1 t : Cert.Mlp.SG.Idx → EReal) = Cert.Mlp.slabG (V m c main_arg1) (pt t) 0 := by
  funext y
  obtain ⟨e0, e1⟩ := idx1 t
  unfold iblk
  rw [View.read_apply]
  show V m c main_arg1 (((cfg0.win 1).blk t).view.emb y) = V m c main_arg1 _
  refine congrArg _ (funext fun a => Fin.ext ?_)
  match a with
  | ⟨0, _⟩ => show win0_1.index t (0 : Fin 2) * 256 + 1 * (y 0).val = 256 * 0 + (y 0).val; omega
  | ⟨1, _⟩ => show win0_1.index t (1 : Fin 2) * 512 + 1 * (y 1).val = 512 * t.val + (y 1).val; omega

/-- Window 2's block at point t is row-slab 1 of W_gate on run t of the columns. -/
theorem blk2_eq (c : Dev nD) (t : Fin cfg0.N) :
    (iblk m c 2 t : Cert.Mlp.SG.Idx → EReal) = Cert.Mlp.slabG (V m c main_arg1) (pt t) 1 := by
  funext y
  obtain ⟨e0, e1⟩ := idx2 t
  unfold iblk
  rw [View.read_apply]
  show V m c main_arg1 (((cfg0.win 2).blk t).view.emb y) = V m c main_arg1 _
  refine congrArg _ (funext fun a => Fin.ext ?_)
  match a with
  | ⟨0, _⟩ => show win0_2.index t (0 : Fin 2) * 256 + 1 * (y 0).val = 256 * 1 + (y 0).val; omega
  | ⟨1, _⟩ => show win0_2.index t (1 : Fin 2) * 512 + 1 * (y 1).val = 512 * t.val + (y 1).val; omega

/-- Window 3's block at point t is row-slab 2 of W_gate on run t of the columns. -/
theorem blk3_eq (c : Dev nD) (t : Fin cfg0.N) :
    (iblk m c 3 t : Cert.Mlp.SG.Idx → EReal) = Cert.Mlp.slabG (V m c main_arg1) (pt t) 2 := by
  funext y
  obtain ⟨e0, e1⟩ := idx3 t
  unfold iblk
  rw [View.read_apply]
  show V m c main_arg1 (((cfg0.win 3).blk t).view.emb y) = V m c main_arg1 _
  refine congrArg _ (funext fun a => Fin.ext ?_)
  match a with
  | ⟨0, _⟩ => show win0_3.index t (0 : Fin 2) * 256 + 1 * (y 0).val = 256 * 2 + (y 0).val; omega
  | ⟨1, _⟩ => show win0_3.index t (1 : Fin 2) * 512 + 1 * (y 1).val = 512 * t.val + (y 1).val; omega

/-- Window 4's block at point t is row-slab 3 of W_gate on run t of the columns. -/
theorem blk4_eq (c : Dev nD) (t : Fin cfg0.N) :
    (iblk m c 4 t : Cert.Mlp.SG.Idx → EReal) = Cert.Mlp.slabG (V m c main_arg1) (pt t) 3 := by
  funext y
  obtain ⟨e0, e1⟩ := idx4 t
  unfold iblk
  rw [View.read_apply]
  show V m c main_arg1 (((cfg0.win 4).blk t).view.emb y) = V m c main_arg1 _
  refine congrArg _ (funext fun a => Fin.ext ?_)
  match a with
  | ⟨0, _⟩ => show win0_4.index t (0 : Fin 2) * 256 + 1 * (y 0).val = 256 * 3 + (y 0).val; omega
  | ⟨1, _⟩ => show win0_4.index t (1 : Fin 2) * 512 + 1 * (y 1).val = 512 * t.val + (y 1).val; omega

/-- Window 5's block at point t is row-slab 4 of W_gate on run t of the columns. -/
theorem blk5_eq (c : Dev nD) (t : Fin cfg0.N) :
    (iblk m c 5 t : Cert.Mlp.SG.Idx → EReal) = Cert.Mlp.slabG (V m c main_arg1) (pt t) 4 := by
  funext y
  obtain ⟨e0, e1⟩ := idx5 t
  unfold iblk
  rw [View.read_apply]
  show V m c main_arg1 (((cfg0.win 5).blk t).view.emb y) = V m c main_arg1 _
  refine congrArg _ (funext fun a => Fin.ext ?_)
  match a with
  | ⟨0, _⟩ => show win0_5.index t (0 : Fin 2) * 256 + 1 * (y 0).val = 256 * 4 + (y 0).val; omega
  | ⟨1, _⟩ => show win0_5.index t (1 : Fin 2) * 512 + 1 * (y 1).val = 512 * t.val + (y 1).val; omega

/-- Window 6's block at point t is row-slab 5 of W_gate on run t of the columns. -/
theorem blk6_eq (c : Dev nD) (t : Fin cfg0.N) :
    (iblk m c 6 t : Cert.Mlp.SG.Idx → EReal) = Cert.Mlp.slabG (V m c main_arg1) (pt t) 5 := by
  funext y
  obtain ⟨e0, e1⟩ := idx6 t
  unfold iblk
  rw [View.read_apply]
  show V m c main_arg1 (((cfg0.win 6).blk t).view.emb y) = V m c main_arg1 _
  refine congrArg _ (funext fun a => Fin.ext ?_)
  match a with
  | ⟨0, _⟩ => show win0_6.index t (0 : Fin 2) * 256 + 1 * (y 0).val = 256 * 5 + (y 0).val; omega
  | ⟨1, _⟩ => show win0_6.index t (1 : Fin 2) * 512 + 1 * (y 1).val = 512 * t.val + (y 1).val; omega

/-- Window 7's block at point t is row-slab 6 of W_gate on run t of the columns. -/
theorem blk7_eq (c : Dev nD) (t : Fin cfg0.N) :
    (iblk m c 7 t : Cert.Mlp.SG.Idx → EReal) = Cert.Mlp.slabG (V m c main_arg1) (pt t) 6 := by
  funext y
  obtain ⟨e0, e1⟩ := idx7 t
  unfold iblk
  rw [View.read_apply]
  show V m c main_arg1 (((cfg0.win 7).blk t).view.emb y) = V m c main_arg1 _
  refine congrArg _ (funext fun a => Fin.ext ?_)
  match a with
  | ⟨0, _⟩ => show win0_7.index t (0 : Fin 2) * 256 + 1 * (y 0).val = 256 * 6 + (y 0).val; omega
  | ⟨1, _⟩ => show win0_7.index t (1 : Fin 2) * 512 + 1 * (y 1).val = 512 * t.val + (y 1).val; omega

/-- Window 8's block at point t is row-slab 7 of W_gate on run t of the columns. -/
theorem blk8_eq (c : Dev nD) (t : Fin cfg0.N) :
    (iblk m c 8 t : Cert.Mlp.SG.Idx → EReal) = Cert.Mlp.slabG (V m c main_arg1) (pt t) 7 := by
  funext y
  obtain ⟨e0, e1⟩ := idx8 t
  unfold iblk
  rw [View.read_apply]
  show V m c main_arg1 (((cfg0.win 8).blk t).view.emb y) = V m c main_arg1 _
  refine congrArg _ (funext fun a => Fin.ext ?_)
  match a with
  | ⟨0, _⟩ => show win0_8.index t (0 : Fin 2) * 256 + 1 * (y 0).val = 256 * 7 + (y 0).val; omega
  | ⟨1, _⟩ => show win0_8.index t (1 : Fin 2) * 512 + 1 * (y 1).val = 512 * t.val + (y 1).val; omega

/-- Window 9's block at point t is row-slab 0 of W_up on run t of the columns. -/
theorem blk9_eq (c : Dev nD) (t : Fin cfg0.N) :
    (iblk m c 9 t : Cert.Mlp.SG.Idx → EReal) = Cert.Mlp.slabG (V m c main_arg2) (pt t) 0 := by
  funext y
  obtain ⟨e0, e1⟩ := idx9 t
  unfold iblk
  rw [View.read_apply]
  show V m c main_arg2 (((cfg0.win 9).blk t).view.emb y) = V m c main_arg2 _
  refine congrArg _ (funext fun a => Fin.ext ?_)
  match a with
  | ⟨0, _⟩ => show win0_9.index t (0 : Fin 2) * 256 + 1 * (y 0).val = 256 * 0 + (y 0).val; omega
  | ⟨1, _⟩ => show win0_9.index t (1 : Fin 2) * 512 + 1 * (y 1).val = 512 * t.val + (y 1).val; omega

/-- Window 10's block at point t is row-slab 1 of W_up on run t of the columns. -/
theorem blk10_eq (c : Dev nD) (t : Fin cfg0.N) :
    (iblk m c 10 t : Cert.Mlp.SG.Idx → EReal) = Cert.Mlp.slabG (V m c main_arg2) (pt t) 1 := by
  funext y
  obtain ⟨e0, e1⟩ := idx10 t
  unfold iblk
  rw [View.read_apply]
  show V m c main_arg2 (((cfg0.win 10).blk t).view.emb y) = V m c main_arg2 _
  refine congrArg _ (funext fun a => Fin.ext ?_)
  match a with
  | ⟨0, _⟩ => show win0_10.index t (0 : Fin 2) * 256 + 1 * (y 0).val = 256 * 1 + (y 0).val; omega
  | ⟨1, _⟩ => show win0_10.index t (1 : Fin 2) * 512 + 1 * (y 1).val = 512 * t.val + (y 1).val; omega

/-- Window 11's block at point t is row-slab 2 of W_up on run t of the columns. -/
theorem blk11_eq (c : Dev nD) (t : Fin cfg0.N) :
    (iblk m c 11 t : Cert.Mlp.SG.Idx → EReal) = Cert.Mlp.slabG (V m c main_arg2) (pt t) 2 := by
  funext y
  obtain ⟨e0, e1⟩ := idx11 t
  unfold iblk
  rw [View.read_apply]
  show V m c main_arg2 (((cfg0.win 11).blk t).view.emb y) = V m c main_arg2 _
  refine congrArg _ (funext fun a => Fin.ext ?_)
  match a with
  | ⟨0, _⟩ => show win0_11.index t (0 : Fin 2) * 256 + 1 * (y 0).val = 256 * 2 + (y 0).val; omega
  | ⟨1, _⟩ => show win0_11.index t (1 : Fin 2) * 512 + 1 * (y 1).val = 512 * t.val + (y 1).val; omega

/-- Window 12's block at point t is row-slab 3 of W_up on run t of the columns. -/
theorem blk12_eq (c : Dev nD) (t : Fin cfg0.N) :
    (iblk m c 12 t : Cert.Mlp.SG.Idx → EReal) = Cert.Mlp.slabG (V m c main_arg2) (pt t) 3 := by
  funext y
  obtain ⟨e0, e1⟩ := idx12 t
  unfold iblk
  rw [View.read_apply]
  show V m c main_arg2 (((cfg0.win 12).blk t).view.emb y) = V m c main_arg2 _
  refine congrArg _ (funext fun a => Fin.ext ?_)
  match a with
  | ⟨0, _⟩ => show win0_12.index t (0 : Fin 2) * 256 + 1 * (y 0).val = 256 * 3 + (y 0).val; omega
  | ⟨1, _⟩ => show win0_12.index t (1 : Fin 2) * 512 + 1 * (y 1).val = 512 * t.val + (y 1).val; omega

/-- Window 13's block at point t is row-slab 4 of W_up on run t of the columns. -/
theorem blk13_eq (c : Dev nD) (t : Fin cfg0.N) :
    (iblk m c 13 t : Cert.Mlp.SG.Idx → EReal) = Cert.Mlp.slabG (V m c main_arg2) (pt t) 4 := by
  funext y
  obtain ⟨e0, e1⟩ := idx13 t
  unfold iblk
  rw [View.read_apply]
  show V m c main_arg2 (((cfg0.win 13).blk t).view.emb y) = V m c main_arg2 _
  refine congrArg _ (funext fun a => Fin.ext ?_)
  match a with
  | ⟨0, _⟩ => show win0_13.index t (0 : Fin 2) * 256 + 1 * (y 0).val = 256 * 4 + (y 0).val; omega
  | ⟨1, _⟩ => show win0_13.index t (1 : Fin 2) * 512 + 1 * (y 1).val = 512 * t.val + (y 1).val; omega

/-- Window 14's block at point t is row-slab 5 of W_up on run t of the columns. -/
theorem blk14_eq (c : Dev nD) (t : Fin cfg0.N) :
    (iblk m c 14 t : Cert.Mlp.SG.Idx → EReal) = Cert.Mlp.slabG (V m c main_arg2) (pt t) 5 := by
  funext y
  obtain ⟨e0, e1⟩ := idx14 t
  unfold iblk
  rw [View.read_apply]
  show V m c main_arg2 (((cfg0.win 14).blk t).view.emb y) = V m c main_arg2 _
  refine congrArg _ (funext fun a => Fin.ext ?_)
  match a with
  | ⟨0, _⟩ => show win0_14.index t (0 : Fin 2) * 256 + 1 * (y 0).val = 256 * 5 + (y 0).val; omega
  | ⟨1, _⟩ => show win0_14.index t (1 : Fin 2) * 512 + 1 * (y 1).val = 512 * t.val + (y 1).val; omega

/-- Window 15's block at point t is row-slab 6 of W_up on run t of the columns. -/
theorem blk15_eq (c : Dev nD) (t : Fin cfg0.N) :
    (iblk m c 15 t : Cert.Mlp.SG.Idx → EReal) = Cert.Mlp.slabG (V m c main_arg2) (pt t) 6 := by
  funext y
  obtain ⟨e0, e1⟩ := idx15 t
  unfold iblk
  rw [View.read_apply]
  show V m c main_arg2 (((cfg0.win 15).blk t).view.emb y) = V m c main_arg2 _
  refine congrArg _ (funext fun a => Fin.ext ?_)
  match a with
  | ⟨0, _⟩ => show win0_15.index t (0 : Fin 2) * 256 + 1 * (y 0).val = 256 * 6 + (y 0).val; omega
  | ⟨1, _⟩ => show win0_15.index t (1 : Fin 2) * 512 + 1 * (y 1).val = 512 * t.val + (y 1).val; omega

/-- Window 16's block at point t is row-slab 7 of W_up on run t of the columns. -/
theorem blk16_eq (c : Dev nD) (t : Fin cfg0.N) :
    (iblk m c 16 t : Cert.Mlp.SG.Idx → EReal) = Cert.Mlp.slabG (V m c main_arg2) (pt t) 7 := by
  funext y
  obtain ⟨e0, e1⟩ := idx16 t
  unfold iblk
  rw [View.read_apply]
  show V m c main_arg2 (((cfg0.win 16).blk t).view.emb y) = V m c main_arg2 _
  refine congrArg _ (funext fun a => Fin.ext ?_)
  match a with
  | ⟨0, _⟩ => show win0_16.index t (0 : Fin 2) * 256 + 1 * (y 0).val = 256 * 7 + (y 0).val; omega
  | ⟨1, _⟩ => show win0_16.index t (1 : Fin 2) * 512 + 1 * (y 1).val = 512 * t.val + (y 1).val; omega

/-- Window 17's block at point t is row-slab 0 of run t of the rows of W_down. -/
theorem blk17_eq (c : Dev nD) (t : Fin cfg0.N) :
    (iblk m c 17 t : Cert.Mlp.SD.Idx → EReal) = Cert.Mlp.slabD (V m c main_arg3) (pt t) 0 := by
  funext y
  obtain ⟨e0, e1⟩ := idx17 t
  unfold iblk
  rw [View.read_apply]
  show V m c main_arg3 (((cfg0.win 17).blk t).view.emb y) = V m c main_arg3 _
  refine congrArg _ (funext fun a => Fin.ext ?_)
  match a with
  | ⟨0, _⟩ => show win0_17.index t (0 : Fin 2) * 64 + 1 * (y 0).val = 512 * t.val + 64 * 0 + (y 0).val; omega
  | ⟨1, _⟩ => show win0_17.index t (1 : Fin 2) * 2048 + 1 * (y 1).val = (y 1).val; omega

/-- Window 18's block at point t is row-slab 1 of run t of the rows of W_down. -/
theorem blk18_eq (c : Dev nD) (t : Fin cfg0.N) :
    (iblk m c 18 t : Cert.Mlp.SD.Idx → EReal) = Cert.Mlp.slabD (V m c main_arg3) (pt t) 1 := by
  funext y
  obtain ⟨e0, e1⟩ := idx18 t
  unfold iblk
  rw [View.read_apply]
  show V m c main_arg3 (((cfg0.win 18).blk t).view.emb y) = V m c main_arg3 _
  refine congrArg _ (funext fun a => Fin.ext ?_)
  match a with
  | ⟨0, _⟩ => show win0_18.index t (0 : Fin 2) * 64 + 1 * (y 0).val = 512 * t.val + 64 * 1 + (y 0).val; omega
  | ⟨1, _⟩ => show win0_18.index t (1 : Fin 2) * 2048 + 1 * (y 1).val = (y 1).val; omega

/-- Window 19's block at point t is row-slab 2 of run t of the rows of W_down. -/
theorem blk19_eq (c : Dev nD) (t : Fin cfg0.N) :
    (iblk m c 19 t : Cert.Mlp.SD.Idx → EReal) = Cert.Mlp.slabD (V m c main_arg3) (pt t) 2 := by
  funext y
  obtain ⟨e0, e1⟩ := idx19 t
  unfold iblk
  rw [View.read_apply]
  show V m c main_arg3 (((cfg0.win 19).blk t).view.emb y) = V m c main_arg3 _
  refine congrArg _ (funext fun a => Fin.ext ?_)
  match a with
  | ⟨0, _⟩ => show win0_19.index t (0 : Fin 2) * 64 + 1 * (y 0).val = 512 * t.val + 64 * 2 + (y 0).val; omega
  | ⟨1, _⟩ => show win0_19.index t (1 : Fin 2) * 2048 + 1 * (y 1).val = (y 1).val; omega

/-- Window 20's block at point t is row-slab 3 of run t of the rows of W_down. -/
theorem blk20_eq (c : Dev nD) (t : Fin cfg0.N) :
    (iblk m c 20 t : Cert.Mlp.SD.Idx → EReal) = Cert.Mlp.slabD (V m c main_arg3) (pt t) 3 := by
  funext y
  obtain ⟨e0, e1⟩ := idx20 t
  unfold iblk
  rw [View.read_apply]
  show V m c main_arg3 (((cfg0.win 20).blk t).view.emb y) = V m c main_arg3 _
  refine congrArg _ (funext fun a => Fin.ext ?_)
  match a with
  | ⟨0, _⟩ => show win0_20.index t (0 : Fin 2) * 64 + 1 * (y 0).val = 512 * t.val + 64 * 3 + (y 0).val; omega
  | ⟨1, _⟩ => show win0_20.index t (1 : Fin 2) * 2048 + 1 * (y 1).val = (y 1).val; omega

/-- Window 21's block at point t is row-slab 4 of run t of the rows of W_down. -/
theorem blk21_eq (c : Dev nD) (t : Fin cfg0.N) :
    (iblk m c 21 t : Cert.Mlp.SD.Idx → EReal) = Cert.Mlp.slabD (V m c main_arg3) (pt t) 4 := by
  funext y
  obtain ⟨e0, e1⟩ := idx21 t
  unfold iblk
  rw [View.read_apply]
  show V m c main_arg3 (((cfg0.win 21).blk t).view.emb y) = V m c main_arg3 _
  refine congrArg _ (funext fun a => Fin.ext ?_)
  match a with
  | ⟨0, _⟩ => show win0_21.index t (0 : Fin 2) * 64 + 1 * (y 0).val = 512 * t.val + 64 * 4 + (y 0).val; omega
  | ⟨1, _⟩ => show win0_21.index t (1 : Fin 2) * 2048 + 1 * (y 1).val = (y 1).val; omega

/-- Window 22's block at point t is row-slab 5 of run t of the rows of W_down. -/
theorem blk22_eq (c : Dev nD) (t : Fin cfg0.N) :
    (iblk m c 22 t : Cert.Mlp.SD.Idx → EReal) = Cert.Mlp.slabD (V m c main_arg3) (pt t) 5 := by
  funext y
  obtain ⟨e0, e1⟩ := idx22 t
  unfold iblk
  rw [View.read_apply]
  show V m c main_arg3 (((cfg0.win 22).blk t).view.emb y) = V m c main_arg3 _
  refine congrArg _ (funext fun a => Fin.ext ?_)
  match a with
  | ⟨0, _⟩ => show win0_22.index t (0 : Fin 2) * 64 + 1 * (y 0).val = 512 * t.val + 64 * 5 + (y 0).val; omega
  | ⟨1, _⟩ => show win0_22.index t (1 : Fin 2) * 2048 + 1 * (y 1).val = (y 1).val; omega

/-- Window 23's block at point t is row-slab 6 of run t of the rows of W_down. -/
theorem blk23_eq (c : Dev nD) (t : Fin cfg0.N) :
    (iblk m c 23 t : Cert.Mlp.SD.Idx → EReal) = Cert.Mlp.slabD (V m c main_arg3) (pt t) 6 := by
  funext y
  obtain ⟨e0, e1⟩ := idx23 t
  unfold iblk
  rw [View.read_apply]
  show V m c main_arg3 (((cfg0.win 23).blk t).view.emb y) = V m c main_arg3 _
  refine congrArg _ (funext fun a => Fin.ext ?_)
  match a with
  | ⟨0, _⟩ => show win0_23.index t (0 : Fin 2) * 64 + 1 * (y 0).val = 512 * t.val + 64 * 6 + (y 0).val; omega
  | ⟨1, _⟩ => show win0_23.index t (1 : Fin 2) * 2048 + 1 * (y 1).val = (y 1).val; omega

/-- Window 24's block at point t is row-slab 7 of run t of the rows of W_down. -/
theorem blk24_eq (c : Dev nD) (t : Fin cfg0.N) :
    (iblk m c 24 t : Cert.Mlp.SD.Idx → EReal) = Cert.Mlp.slabD (V m c main_arg3) (pt t) 7 := by
  funext y
  obtain ⟨e0, e1⟩ := idx24 t
  unfold iblk
  rw [View.read_apply]
  show V m c main_arg3 (((cfg0.win 24).blk t).view.emb y) = V m c main_arg3 _
  refine congrArg _ (funext fun a => Fin.ext ?_)
  match a with
  | ⟨0, _⟩ => show win0_24.index t (0 : Fin 2) * 64 + 1 * (y 0).val = 512 * t.val + 64 * 7 + (y 0).val; omega
  | ⟨1, _⟩ => show win0_24.index t (1 : Fin 2) * 2048 + 1 * (y 1).val = (y 1).val; omega

/-! ## The three families -/

/-- x, as the body loads it at any point, is the whole array. -/
theorem xBlk_eq (c : Dev nD) (t : Fin cfg0.N) :
    (iblk m c 0 t : Cert.Mlp.SX.Idx → EReal) = V m c main_arg0 := blk0_eq m c t

/-- The slabs of W_gate the body loads at point t are those of the whole matrix on run t. -/
theorem gBlk_eq (c : Dev nD) (t : Fin cfg0.N) (q : Fin 8) :
    (gBlk m c t q : Cert.Mlp.SG.Idx → EReal) = Cert.Mlp.slabG (V m c main_arg1) (t.cast Gen.N_0) q := by
  match q with
  | ⟨0, _⟩ => exact blk1_eq m c t
  | ⟨1, _⟩ => exact blk2_eq m c t
  | ⟨2, _⟩ => exact blk3_eq m c t
  | ⟨3, _⟩ => exact blk4_eq m c t
  | ⟨4, _⟩ => exact blk5_eq m c t
  | ⟨5, _⟩ => exact blk6_eq m c t
  | ⟨6, _⟩ => exact blk7_eq m c t
  | ⟨7, _⟩ => exact blk8_eq m c t

/-- The slabs of W_up the body loads at point t are those of the whole matrix on run t. -/
theorem uBlk_eq (c : Dev nD) (t : Fin cfg0.N) (q : Fin 8) :
    (uBlk m c t q : Cert.Mlp.SG.Idx → EReal) = Cert.Mlp.slabG (V m c main_arg2) (t.cast Gen.N_0) q := by
  match q with
  | ⟨0, _⟩ => exact blk9_eq m c t
  | ⟨1, _⟩ => exact blk10_eq m c t
  | ⟨2, _⟩ => exact blk11_eq m c t
  | ⟨3, _⟩ => exact blk12_eq m c t
  | ⟨4, _⟩ => exact blk13_eq m c t
  | ⟨5, _⟩ => exact blk14_eq m c t
  | ⟨6, _⟩ => exact blk15_eq m c t
  | ⟨7, _⟩ => exact blk16_eq m c t

/-- The slabs of W_down the body loads at point t are those of the whole matrix on run t. -/
theorem dBlk_eq (c : Dev nD) (t : Fin cfg0.N) (q : Fin 8) :
    (dBlk m c t q : Cert.Mlp.SD.Idx → EReal) = Cert.Mlp.slabD (V m c main_arg3) (t.cast Gen.N_0) q := by
  match q with
  | ⟨0, _⟩ => exact blk17_eq m c t
  | ⟨1, _⟩ => exact blk18_eq m c t
  | ⟨2, _⟩ => exact blk19_eq m c t
  | ⟨3, _⟩ => exact blk20_eq m c t
  | ⟨4, _⟩ => exact blk21_eq m c t
  | ⟨5, _⟩ => exact blk22_eq m c t
  | ⟨6, _⟩ => exact blk23_eq m c t
  | ⟨7, _⟩ => exact blk24_eq m c t

end Cert.KernelIdeal.Hand

end
-- ==== Proof.ContribApply.lean ====
/-
  One grid point's arithmetic, read at one entry. The composed body value `contrib x g u d` at row p and column h is
      Σ_{q < 8} Σ_{k < 64} act[p, 64 q + k] · d_q[k, h],     act[p, j] = gate[p, j] · σ(gate[p, j]) · up[p, j],
      gate[p, j] = Σ_{q < 8} Σ_{k < 256} x[p, 256 q + k] · g_q[k, j],   up likewise from the slabs u_q,
  every outer sum added from the left in the order q = 0, …, 7 — which is the blocked arrangement `Cert.Mlp.contribB`
  of the specification, term for term. Three facts carry the proof: a product of two matrices accumulated into the zero
  array reads, at (p, j), the sum over the contracted coordinate of the entries' products; a run of columns c, c + 1, …
  of an array reads, at (p, k), the array at (p, c + k); and sums, products and σ of arrays are taken entry by entry.
  No sum is regrouped here: the body adds its eight products in the order `sum8` writes them.
-/
import proofs.«128006_g77111842832762_cont_sun_m_58_34_alg».proof.Proof.Contrib
import proofs.«128006_g77111842832762_cont_sun_m_58_34_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen
open Cert.Mlp (col lane sum8 projB actB contribB)

/-! ## A plain product into a zero accumulator, read at a row and a column -/

theorem D256_lhs0 (i : S32x512.Idx) (q : dot_S32x256_S256x512_S32x512_1_0_0_1_n_n.contr.Idx) : (dot_S32x256_S256x512_S32x512_1_0_0_1_n_n.lhsIdx i q 0).val = (i 0).val := by
  unfold DotDims.lhsIdx
  rw [dif_neg (show ¬(0 : Fin S32x256.rank) ∈ dot_S32x256_S256x512_S32x512_1_0_0_1_n_n.lhsBatch by decide), dif_pos (show (0 : Fin S32x256.rank) ∈ dot_S32x256_S256x512_S32x512_1_0_0_1_n_n.lhsNonContracting by decide)]
  rfl
theorem D256_lhs1 (i : S32x512.Idx) (q : dot_S32x256_S256x512_S32x512_1_0_0_1_n_n.contr.Idx) : (dot_S32x256_S256x512_S32x512_1_0_0_1_n_n.lhsIdx i q 1).val = (q ⟨0, by decide⟩).val :=
  dot_S32x256_S256x512_S32x512_1_0_0_1_n_n.lhsIdx_val_of_single rfl i q
theorem D256_rhs0 (i : S32x512.Idx) (q : dot_S32x256_S256x512_S32x512_1_0_0_1_n_n.contr.Idx) : (dot_S32x256_S256x512_S32x512_1_0_0_1_n_n.rhsIdx i q 0).val = (q ⟨0, by decide⟩).val :=
  dot_S32x256_S256x512_S32x512_1_0_0_1_n_n.rhsIdx_val_of_single rfl i q
theorem D256_rhs1 (i : S32x512.Idx) (q : dot_S32x256_S256x512_S32x512_1_0_0_1_n_n.contr.Idx) : (dot_S32x256_S256x512_S32x512_1_0_0_1_n_n.rhsIdx i q 1).val = (i 1).val := by
  unfold DotDims.rhsIdx
  rw [dif_neg (show ¬(1 : Fin S256x512.rank) ∈ dot_S32x256_S256x512_S32x512_1_0_0_1_n_n.rhsBatch by decide), dif_pos (show (1 : Fin S256x512.rank) ∈ dot_S32x256_S256x512_S32x512_1_0_0_1_n_n.rhsNonContracting by decide)]
  rfl

/-- (l · r)[p, j] = Σ_k l[p, k] · r[k, j] for a 32 × 256 by 256 × 512 product accumulated into zero. -/
theorem mm256_apply (l : FVec Ideal S32x256 .f32) (r : FVec Ideal S256x512 .f32) (p : Fin 32) (j : Fin 512) :
    matmul (F := Ideal) dot_S32x256_S256x512_S32x512_1_0_0_1_n_n none l r (constant S32x512 .f32 0x00000000#32) (ix2 p j)
      = ∑ k : Fin 256, l (ix2 p k) * r (ix2 k j) := by
  refine (Ideal.matmul_constant_zero_apply dot_S32x256_S256x512_S32x512_1_0_0_1_n_n none l r (ix2 p j)).trans ?_
  rw [← Equiv.sum_comp (contrEquiv1 dot_S32x256_S256x512_S32x512_1_0_0_1_n_n 256 rfl rfl).symm]
  refine Finset.sum_congr rfl fun k _ => ?_
  have hk := contrEquiv1_symm_val dot_S32x256_S256x512_S32x512_1_0_0_1_n_n 256 rfl rfl k
  have el : dot_S32x256_S256x512_S32x512_1_0_0_1_n_n.lhsIdx (ix2 p j) ((contrEquiv1 dot_S32x256_S256x512_S32x512_1_0_0_1_n_n 256 rfl rfl).symm k) = ix2 p k := funext fun a => Fin.ext (by
    match a with
    | ⟨0, _⟩ => exact D256_lhs0 _ _
    | ⟨1, _⟩ => exact (D256_lhs1 _ _).trans hk)
  have er : dot_S32x256_S256x512_S32x512_1_0_0_1_n_n.rhsIdx (ix2 p j) ((contrEquiv1 dot_S32x256_S256x512_S32x512_1_0_0_1_n_n 256 rfl rfl).symm k) = ix2 k j := funext fun a => Fin.ext (by
    match a with
    | ⟨0, _⟩ => exact (D256_rhs0 _ _).trans hk
    | ⟨1, _⟩ => exact D256_rhs1 _ _)
  rw [el, er]

theorem D64_lhs0 (i : S32x2048.Idx) (q : dot_S32x64_S64x2048_S32x2048_1_0_0_1_n_n.contr.Idx) : (dot_S32x64_S64x2048_S32x2048_1_0_0_1_n_n.lhsIdx i q 0).val = (i 0).val := by
  unfold DotDims.lhsIdx
  rw [dif_neg (show ¬(0 : Fin S32x64.rank) ∈ dot_S32x64_S64x2048_S32x2048_1_0_0_1_n_n.lhsBatch by decide), dif_pos (show (0 : Fin S32x64.rank) ∈ dot_S32x64_S64x2048_S32x2048_1_0_0_1_n_n.lhsNonContracting by decide)]
  rfl
theorem D64_lhs1 (i : S32x2048.Idx) (q : dot_S32x64_S64x2048_S32x2048_1_0_0_1_n_n.contr.Idx) : (dot_S32x64_S64x2048_S32x2048_1_0_0_1_n_n.lhsIdx i q 1).val = (q ⟨0, by decide⟩).val :=
  dot_S32x64_S64x2048_S32x2048_1_0_0_1_n_n.lhsIdx_val_of_single rfl i q
theorem D64_rhs0 (i : S32x2048.Idx) (q : dot_S32x64_S64x2048_S32x2048_1_0_0_1_n_n.contr.Idx) : (dot_S32x64_S64x2048_S32x2048_1_0_0_1_n_n.rhsIdx i q 0).val = (q ⟨0, by decide⟩).val :=
  dot_S32x64_S64x2048_S32x2048_1_0_0_1_n_n.rhsIdx_val_of_single rfl i q
theorem D64_rhs1 (i : S32x2048.Idx) (q : dot_S32x64_S64x2048_S32x2048_1_0_0_1_n_n.contr.Idx) : (dot_S32x64_S64x2048_S32x2048_1_0_0_1_n_n.rhsIdx i q 1).val = (i 1).val := by
  unfold DotDims.rhsIdx
  rw [dif_neg (show ¬(1 : Fin S64x2048.rank) ∈ dot_S32x64_S64x2048_S32x2048_1_0_0_1_n_n.rhsBatch by decide), dif_pos (show (1 : Fin S64x2048.rank) ∈ dot_S32x64_S64x2048_S32x2048_1_0_0_1_n_n.rhsNonContracting by decide)]
  rfl

/-- (l · r)[p, h] = Σ_k l[p, k] · r[k, h] for a 32 × 64 by 64 × 2048 product accumulated into zero. -/
theorem mm64_apply (l : FVec Ideal S32x64 .f32) (r : FVec Ideal S64x2048 .f32) (p : Fin 32) (h : Fin 2048) :
    matmul (F := Ideal) dot_S32x64_S64x2048_S32x2048_1_0_0_1_n_n none l r (constant S32x2048 .f32 0x00000000#32) (ix2 p h)
      = ∑ k : Fin 64, l (ix2 p k) * r (ix2 k h) := by
  refine (Ideal.matmul_constant_zero_apply dot_S32x64_S64x2048_S32x2048_1_0_0_1_n_n none l r (ix2 p h)).trans ?_
  rw [← Equiv.sum_comp (contrEquiv1 dot_S32x64_S64x2048_S32x2048_1_0_0_1_n_n 64 rfl rfl).symm]
  refine Finset.sum_congr rfl fun k _ => ?_
  have hk := contrEquiv1_symm_val dot_S32x64_S64x2048_S32x2048_1_0_0_1_n_n 64 rfl rfl k
  have el : dot_S32x64_S64x2048_S32x2048_1_0_0_1_n_n.lhsIdx (ix2 p h) ((contrEquiv1 dot_S32x64_S64x2048_S32x2048_1_0_0_1_n_n 64 rfl rfl).symm k) = ix2 p k := funext fun a => Fin.ext (by
    match a with
    | ⟨0, _⟩ => exact D64_lhs0 _ _
    | ⟨1, _⟩ => exact (D64_lhs1 _ _).trans hk)
  have er : dot_S32x64_S64x2048_S32x2048_1_0_0_1_n_n.rhsIdx (ix2 p h) ((contrEquiv1 dot_S32x64_S64x2048_S32x2048_1_0_0_1_n_n 64 rfl rfl).symm k) = ix2 k h := funext fun a => Fin.ext (by
    match a with
    | ⟨0, _⟩ => exact (D64_rhs0 _ _).trans hk
    | ⟨1, _⟩ => exact D64_rhs1 _ _)
  rw [el, er]

/-! ## A run of columns, read at a row and a column -/

/-- Columns c … c + 255 of a 32 × 2048 array: entry (p, k) of the run is entry (p, c + k) of the array. -/
theorem slice256_apply (c : Nat) (hc : c + 256 ≤ 2048) (x : Vec Ideal S32x2048 .f32) (hs : S32x2048.Slices ![0, c] S32x256)
    (p : Fin 32) (k : Fin 256) :
    extractStridedSlice S32x256 ![0, c] x hs (ix2 p k) = x (ix2 p (⟨c + k.val, by omega⟩ : Fin 2048)) := by
  refine extractStridedSlice_apply ![0, c] x hs (ix2 p k) _ fun a => ?_
  match a with
  | ⟨0, _⟩ => exact (Nat.zero_add _).symm
  | ⟨1, _⟩ => rfl

/-- Columns c … c + 63 of a 32 × 512 array: entry (p, k) of the run is entry (p, c + k) of the array. -/
theorem slice64_apply (c : Nat) (hc : c + 64 ≤ 512) (a : FVec Ideal S32x512 .f32) (hs : S32x512.Slices ![0, c] S32x64)
    (p : Fin 32) (k : Fin 64) :
    extractStridedSlice S32x64 ![0, c] a hs (ix2 p k) = a (ix2 p (⟨c + k.val, by omega⟩ : Fin 512)) := by
  refine extractStridedSlice_apply ![0, c] a hs (ix2 p k) _ fun b => ?_
  match b with
  | ⟨0, _⟩ => exact (Nat.zero_add _).symm
  | ⟨1, _⟩ => rfl

/-- The q-th run of 256 columns of x times a 256 × 512 slab, into zero, at (p, j): Σ_k x[p, 256 q + k] · w[k, j]. -/
theorem slab256_apply (c : Nat) (q : Fin 8) (hcq : c = 256 * q.val) (x : Vec Ideal S32x2048 .f32)
    (hs : S32x2048.Slices ![0, c] S32x256) (w : Vec Ideal S256x512 .f32) (p : Fin 32) (j : Fin 512) :
    matmul (F := Ideal) (φ₁ := .f32) (φ₂ := .f32) dot_S32x256_S256x512_S32x512_1_0_0_1_n_n none (extractStridedSlice S32x256 ![0, c] x hs) w (constant S32x512 .f32 0x00000000#32) (ix2 p j)
      = ∑ k : Fin 256, x (ix2 p (col q k)) * w (ix2 k j) := by
  subst hcq
  refine (mm256_apply _ w p j).trans (Finset.sum_congr rfl fun k _ => ?_)
  exact congrArg (· * w (ix2 k j)) (slice256_apply _ (by have := q.isLt; omega) x hs p k)

/-- The q-th run of 64 columns of a 32 × 512 array a times a 64 × 2048 slab, into zero, at (p, h):
    Σ_k f(64 q + k) · w[k, h], when row p of a reads f. -/
theorem slab64_apply (c : Nat) (q : Fin 8) (hcq : c = 64 * q.val) (a : FVec Ideal S32x512 .f32)
    (hs : S32x512.Slices ![0, c] S32x64) (w : Vec Ideal S64x2048 .f32) (p : Fin 32) (h : Fin 2048)
    (f : Fin 512 → EReal) (ha : ∀ n, a (ix2 p n) = f n) :
    matmul (F := Ideal) (φ₁ := .f32) (φ₂ := .f32) dot_S32x64_S64x2048_S32x2048_1_0_0_1_n_n none (extractStridedSlice S32x64 ![0, c] a hs) w (constant S32x2048 .f32 0x00000000#32) (ix2 p h)
      = ∑ k : Fin 64, f (lane q k) * w (ix2 k h) := by
  subst hcq
  refine (mm64_apply _ w p h).trans (Finset.sum_congr rfl fun k _ => ?_)
  exact congrArg (· * w (ix2 k h)) ((slice64_apply _ (by have := q.isLt; omega) a hs p k).trans (ha (lane q k)))

/-! ## Sums and products of arrays, read at an index -/

/-- A sum of two arrays at an index, from what each reads there. -/
theorem add_read {s : Shape} (a b : FVec Ideal s .f32) (i : s.Idx) (A B : EReal) (ha : a i = A) (hb : b i = B) :
    addf a b i = A + B := by
  rw [addf_apply, ha, hb]

/-- a · σ(a) · b at an index, from what a and b read there. -/
theorem act_read {s : Shape} (a b : FVec Ideal s .f32) (i : s.Idx) (A B : EReal) (ha : a i = A) (hb : b i = B) :
    mulf (mulf a (logistic a)) b i = A * Ideal.logistic A * B := by
  show a i * Ideal.logistic (a i) * b i = _
  rw [ha, hb]

/-! ## The gate and up products and the activation, at (p, j) -/

/-- The first four slabs' share of x · w at (p, j), added from the left. -/
theorem pay6_apply (x : Vec Ideal S32x2048 .f32) (w0 w1 w2 w3 : Vec Ideal S256x512 .f32) (p : Fin 32) (j : Fin 512) :
    k0_pay6 (F := Ideal) x w0 w1 w2 w3 (ix2 p j)
      = (∑ k : Fin 256, x (ix2 p (col 0 k)) * w0 (ix2 k j)) + (∑ k : Fin 256, x (ix2 p (col 1 k)) * w1 (ix2 k j))
        + (∑ k : Fin 256, x (ix2 p (col 2 k)) * w2 (ix2 k j)) + (∑ k : Fin 256, x (ix2 p (col 3 k)) * w3 (ix2 k j)) := by
  unfold k0_pay6 k0_pay3 k0_pay4 k0_pay5
  exact add_read _ _ _ _ _ (add_read _ _ _ _ _ (add_read _ _ _ _ _
    (slab256_apply 0 0 rfl x _ w0 p j) (slab256_apply 256 1 rfl x _ w1 p j))
    (slab256_apply 512 2 rfl x _ w2 p j)) (slab256_apply 768 3 rfl x _ w3 p j)

/-- The same for the second weight matrix: the two payloads are one expression in different slabs. -/
theorem pay7_apply (x : Vec Ideal S32x2048 .f32) (w0 w1 w2 w3 : Vec Ideal S256x512 .f32) (p : Fin 32) (j : Fin 512) :
    k0_pay7 (F := Ideal) x w0 w1 w2 w3 (ix2 p j)
      = (∑ k : Fin 256, x (ix2 p (col 0 k)) * w0 (ix2 k j)) + (∑ k : Fin 256, x (ix2 p (col 1 k)) * w1 (ix2 k j))
        + (∑ k : Fin 256, x (ix2 p (col 2 k)) * w2 (ix2 k j)) + (∑ k : Fin 256, x (ix2 p (col 3 k)) * w3 (ix2 k j)) := by
  unfold k0_pay7 k0_pay3 k0_pay4 k0_pay5
  exact add_read _ _ _ _ _ (add_read _ _ _ _ _ (add_read _ _ _ _ _
    (slab256_apply 0 0 rfl x _ w0 p j) (slab256_apply 256 1 rfl x _ w1 p j))
    (slab256_apply 512 2 rfl x _ w2 p j)) (slab256_apply 768 3 rfl x _ w3 p j)

/-- The activation at (p, j): the last four slabs join the first four, then gate · σ(gate) · up. -/
theorem pay9_apply (x : Vec Ideal S32x2048 .f32) (g u : Fin 8 → Vec Ideal S256x512 .f32) (p : Fin 32) (j : Fin 512) :
    k0_pay9 (F := Ideal) x (k0_pay6 x (g 0) (g 1) (g 2) (g 3)) (k0_pay7 x (u 0) (u 1) (u 2) (u 3)) (k0_pay8 x) (g 4)
        (constant S32x512 .f32 0x00000000#32) (u 4) (g 5) (u 5) (g 6) (u 6) (g 7) (u 7) (ix2 p j)
      = actB x g u p j := by
  unfold k0_pay9 k0_pay8
  exact act_read _ _ _ _ _
    (add_read _ _ _ _ _ (add_read _ _ _ _ _ (add_read _ _ _ _ _ (add_read _ _ _ _ _
      (pay6_apply x (g 0) (g 1) (g 2) (g 3) p j)
      (slab256_apply 1024 4 rfl x _ (g 4) p j)) (slab256_apply 1280 5 rfl x _ (g 5) p j))
      (slab256_apply 1536 6 rfl x _ (g 6) p j)) (slab256_apply 1792 7 rfl x _ (g 7) p j))
    (add_read _ _ _ _ _ (add_read _ _ _ _ _ (add_read _ _ _ _ _ (add_read _ _ _ _ _
      (pay7_apply x (u 0) (u 1) (u 2) (u 3) p j)
      (slab256_apply 1024 4 rfl x _ (u 4) p j)) (slab256_apply 1280 5 rfl x _ (u 5) p j))
      (slab256_apply 1536 6 rfl x _ (u 6) p j)) (slab256_apply 1792 7 rfl x _ (u 7) p j))

/-! ## One grid point's contribution, at (p, h) -/

/-- The composed payloads at (p, h) are the blocked arrangement's contribution there. -/
theorem contrib_apply (x : Vec Ideal S32x2048 .f32) (g u : Fin 8 → Vec Ideal S256x512 .f32)
    (d : Fin 8 → Vec Ideal S64x2048 .f32) (p : Fin 32) (h : Fin 2048) :
    contrib (F := Ideal) x g u d (ix2 p h) = contribB x g u d p h := by
  have ha : ∀ n, k0_pay9 (F := Ideal) x (k0_pay6 x (g 0) (g 1) (g 2) (g 3)) (k0_pay7 x (u 0) (u 1) (u 2) (u 3)) (k0_pay8 x) (g 4)
      (constant S32x512 .f32 0x00000000#32) (u 4) (g 5) (u 5) (g 6) (u 6) (g 7) (u 7) (ix2 p n) = actB x g u p n :=
    fun n => pay9_apply x g u p n
  unfold contrib k0_pay1 k0_pay10 k0_pay11
  exact add_read _ _ _ _ _ (add_read _ _ _ _ _ (add_read _ _ _ _ _ (add_read _ _ _ _ _ (add_read _ _ _ _ _
    (add_read _ _ _ _ _ (add_read _ _ _ _ _
      (slab64_apply 0 0 rfl _ _ (d 0) p h (actB x g u p) ha) (slab64_apply 64 1 rfl _ _ (d 1) p h (actB x g u p) ha))
      (slab64_apply 128 2 rfl _ _ (d 2) p h (actB x g u p) ha)) (slab64_apply 192 3 rfl _ _ (d 3) p h (actB x g u p) ha))
      (slab64_apply 256 4 rfl _ _ (d 4) p h (actB x g u p) ha)) (slab64_apply 320 5 rfl _ _ (d 5) p h (actB x g u p) ha))
      (slab64_apply 384 6 rfl _ _ (d 6) p h (actB x g u p) ha)) (slab64_apply 448 7 rfl _ _ (d 7) p h (actB x g u p) ha)

end Cert.KernelIdeal.Hand

end
-- ==== Proof.Regroup.lean ====
/-
  The regrouping law. A finite sum over T · P consecutive entries is the sum over T runs of the sums over the P entries
  of each run; a left-nested sum of eight terms is the sum over its eight positions. With these, a blocked projection
  on a run of columns is the plain projection there, and the plain result is the sum of the four runs' contributions.
  Only commutativity and associativity of addition on the extended reals are used.
-/
import proofs.«128006_g77111842832762_cont_sun_m_58_34_alg».proof.Proof.Spec
import Mathlib.Algebra.BigOperators.Fin

noncomputable section

open scoped BigOperators

namespace Cert.Mlp

open Idealize.ShloMosaic Idealize.ShloMosaic.ValueIdx

/-! ## Sums over runs -/

/-- Entry `k` of run `t` lies among the `T * P` entries. -/
theorem blockIdx_lt {T P : ℕ} (t : Fin T) (k : Fin P) : P * t.val + k.val < T * P := by
  have h1 : P * t.val + P ≤ P * T := by
    have h2 : t.val + 1 ≤ T := t.isLt
    calc P * t.val + P = P * (t.val + 1) := by ring
      _ ≤ P * T := Nat.mul_le_mul_left P h2
  have h3 := k.isLt
  rw [Nat.mul_comm T P]
  omega

/-- A sum over `T * P` entries, run by run. -/
theorem sum_blocks {M : Type*} [AddCommMonoid M] (T P : ℕ) (f : Fin (T * P) → M) :
    ∑ n : Fin (T * P), f n = ∑ t : Fin T, ∑ k : Fin P, f ⟨P * t.val + k.val, blockIdx_lt t k⟩ := by
  rw [← Equiv.sum_comp finProdFinEquiv f, Fintype.sum_prod_type]
  refine Finset.sum_congr rfl fun t _ => Finset.sum_congr rfl fun k _ => congrArg f (Fin.ext ?_)
  show k.val + P * t.val = P * t.val + k.val
  exact Nat.add_comm _ _

/-- The same for a number of entries that is `T * P` by an equation. -/
theorem sum_blocks_of_eq {M : Type*} [AddCommMonoid M] {N : ℕ} (T P : ℕ) (hN : N = T * P) (f : Fin N → M) :
    ∑ n : Fin N, f n = ∑ t : Fin T, ∑ k : Fin P, f ⟨P * t.val + k.val, hN ▸ blockIdx_lt t k⟩ := by
  subst hN
  exact sum_blocks T P f

/-- Eight terms added from the left are the sum over the eight positions. -/
theorem sum8_eq (f : Fin 8 → EReal) : sum8 f = ∑ q : Fin 8, f q := (Fin.sum_univ_eight f).symm

/-! ## A blocked projection is the plain one -/

theorem projB_slab (x : SX.Idx → EReal) (w : SW.Idx → EReal) (t : Fin 4) (p : Fin 32) (j : Fin 512) :
    projB x (slabG w t) p j = proj x w p (⟨512 * t.val + j.val, by omega⟩ : Fin 2048) := by
  unfold projB proj
  rw [sum8_eq, sum_blocks_of_eq 8 256 (show 2048 = 8 * 256 by norm_num)]
  exact Finset.sum_congr rfl fun q _ => Finset.sum_congr rfl fun k _ => rfl

/-- The activations on a run of columns, from the slabs, are the plain ones there. -/
theorem actB_slab (x : SX.Idx → EReal) (wg wu : SW.Idx → EReal) (t : Fin 4) (p : Fin 32) (j : Fin 512) :
    actB x (slabG wg t) (slabG wu t) p j = act x wg wu p (⟨512 * t.val + j.val, by omega⟩ : Fin 2048) := by
  unfold actB act
  rw [projB_slab, projB_slab]

/-! ## The plain result is the sum of the four runs' contributions -/

/-- One run's contribution is the part of the plain sum over that run's 512 entries. -/
theorem contribAt_eq (x : SX.Idx → EReal) (wg wu wd : SW.Idx → EReal) (t : Fin 4) (p : Fin 32) (h : Fin 2048) :
    contribAt x wg wu wd t p h
      = ∑ j : Fin 512, act x wg wu p (⟨512 * t.val + j.val, by omega⟩ : Fin 2048)
          * wd (ix2 (⟨512 * t.val + j.val, by omega⟩ : Fin 2048) h) := by
  unfold contribAt contribB
  rw [sum8_eq, sum_blocks_of_eq 8 64 (show 512 = 8 * 64 by norm_num)]
  refine Finset.sum_congr rfl fun q _ => Finset.sum_congr rfl fun k _ => ?_
  rw [actB_slab]
  have e : (⟨512 * t.val + 64 * q.val + k.val, by omega⟩ : Fin 2048)
      = ⟨512 * t.val + (lane q k).val, by have := (lane q k).isLt; omega⟩ :=
    Fin.ext (Nat.add_assoc _ _ _)
  show _ * wd (ix2 (⟨512 * t.val + 64 * q.val + k.val, _⟩ : Fin 2048) h) = _
  rw [e]
  rfl

theorem Gat_eq_blocks (x : SX.Idx → EReal) (wg wu wd : SW.Idx → EReal) (p : Fin 32) (h : Fin 2048) :
    Gat x wg wu wd p h = contribAt x wg wu wd 0 p h + contribAt x wg wu wd 1 p h + contribAt x wg wu wd 2 p h
      + contribAt x wg wu wd 3 p h := by
  unfold Gat
  rw [sum_blocks_of_eq 4 512 (show 2048 = 4 * 512 by norm_num), Fin.sum_univ_four, contribAt_eq, contribAt_eq, contribAt_eq, contribAt_eq]

end Cert.Mlp

end
-- ==== Proof.LastPoint.lean ====
/-
  After the last of the four grid points the running output block is the specification. The block starts at the first
  point's contribution and every later point adds its own; each point's contribution, read off the whole arrays, is the
  blocked arrangement's share of that point's run of 512 intermediate columns; and the plain result is the sum of the
  four shares added from the left.
-/
import proofs.«128006_g77111842832762_cont_sun_m_58_34_alg».proof.Proof.BlockReads
import proofs.«128006_g77111842832762_cont_sun_m_58_34_alg».proof.Proof.ContribApply
import proofs.«128006_g77111842832762_cont_sun_m_58_34_alg».proof.Proof.Regroup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

open Cert.Mlp (SX SW SG SD contribB contribAt slabG slabD G G_ix2 Gat_eq_blocks)

/-- The blocked arrangement depends on its arguments only. -/
theorem contribB_congr {x x' : SX.Idx → EReal} {g g' u u' : Fin 8 → SG.Idx → EReal} {d d' : Fin 8 → SD.Idx → EReal}
    (hx : x = x') (hg : g = g') (hu : u = u') (hd : d = d') (p : Fin 32) (h : Fin 2048) :
    contribB x g u d p h = contribB x' g' u' d' p h := by
  subst hx hg hu hd; rfl

/-- One point's contribution at an entry, from the whole arrays: the share of the point's run. -/
theorem contrib_point (c : Dev nD) (t : Fin cfg0.N) (p : Fin 32) (h : Fin 2048) :
    contrib (F := Ideal) (iblk m c 0 t) (gBlk m c t) (uBlk m c t) (dBlk m c t) (ix2 p h)
      = contribAt (V m c main_arg0) (V m c main_arg1) (V m c main_arg2) (V m c main_arg3) (t.cast Gen.N_0) p h :=
  (contrib_apply (iblk m c 0 t) (gBlk m c t) (uBlk m c t) (dBlk m c t) p h).trans
    (contribB_congr (xBlk_eq m c t) (funext fun q => gBlk_eq m c t q) (funext fun q => uBlk_eq m c t q)
      (funext fun q => dBlk_eq m c t q) p h)

/-- Any sequence of blocks that starts at the first point's contribution and adds one contribution per point holds
    the specification after the fourth. -/
theorem last_of_steps (c : Dev nD) (o : (n : ℕ) → n < cfg0.N → SX.Idx → EReal)
    (h0 : ∀ h, o 0 h = contrib (F := Ideal) (iblk m c 0 ⟨0, h⟩) (gBlk m c ⟨0, h⟩) (uBlk m c ⟨0, h⟩) (dBlk m c ⟨0, h⟩))
    (hs : ∀ n h, o (n + 1) h = addf (F := Ideal) (s := S32x2048) (φ := .f32) (o n (Nat.lt_of_succ_lt h))
      (contrib (F := Ideal) (iblk m c 0 ⟨n + 1, h⟩) (gBlk m c ⟨n + 1, h⟩) (uBlk m c ⟨n + 1, h⟩) (dBlk m c ⟨n + 1, h⟩)))
    (h3 : 3 < cfg0.N) :
    o 3 h3 = G (V m c main_arg0) (V m c main_arg1) (V m c main_arg2) (V m c main_arg3) := by
  funext i
  obtain ⟨p, hh, rfl⟩ : ∃ (p : Fin 32) (hh : Fin 2048), i = ix2 p hh := ⟨i 0, i 1, eq_ix2 i⟩
  have h2 : 2 < cfg0.N := Nat.lt_of_succ_lt h3
  have h1 : 1 < cfg0.N := Nat.lt_of_succ_lt h2
  have hz : 0 < cfg0.N := Nat.lt_of_succ_lt h1
  have e0 : o 0 hz (ix2 p hh)
      = contribAt (V m c main_arg0) (V m c main_arg1) (V m c main_arg2) (V m c main_arg3) 0 p hh :=
    (congrFun (h0 hz) (ix2 p hh)).trans (contrib_point m c ⟨0, hz⟩ p hh)
  have e1 : o 1 h1 (ix2 p hh) = o 0 hz (ix2 p hh)
      + contribAt (V m c main_arg0) (V m c main_arg1) (V m c main_arg2) (V m c main_arg3) 1 p hh :=
    (congrFun (hs 0 h1) (ix2 p hh)).trans
      (congrArg (fun z => o 0 hz (ix2 p hh) + z) (contrib_point m c ⟨1, h1⟩ p hh))
  have e2 : o 2 h2 (ix2 p hh) = o 1 h1 (ix2 p hh)
      + contribAt (V m c main_arg0) (V m c main_arg1) (V m c main_arg2) (V m c main_arg3) 2 p hh :=
    (congrFun (hs 1 h2) (ix2 p hh)).trans
      (congrArg (fun z => o 1 h1 (ix2 p hh) + z) (contrib_point m c ⟨2, h2⟩ p hh))
  have e3 : o 3 h3 (ix2 p hh) = o 2 h2 (ix2 p hh)
      + contribAt (V m c main_arg0) (V m c main_arg1) (V m c main_arg2) (V m c main_arg3) 3 p hh :=
    (congrFun (hs 2 h3) (ix2 p hh)).trans
      (congrArg (fun z => o 2 h2 (ix2 p hh) + z) (contrib_point m c ⟨3, h3⟩ p hh))
  rw [G_ix2, Gat_eq_blocks, e3, e2, e1, e0]

end Cert.KernelIdeal.Hand

end
-- ==== Proof.FinalArrays.lean ====
/-
  The arrays after the run. The output window writes its block back once, after the last grid point, and that block is
  the whole output array: so the array ends holding what the output block held after the last point. No input window
  ever writes back: x and the three weight matrices end as the region found them.
-/
import proofs.«128006_g77111842832762_cont_sun_m_58_34_alg».proof.Proof.FrameOut
import proofs.«128006_g77111842832762_cont_sun_m_58_34_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-! ## The output array -/

/-- The one write-back, at the last point, writes the block held then: block (0, 0) of the 32 × 2048 array, read
    through zero offsets, is the array. -/
theorem flushed25_eq (c : Dev nD) (Gc : Cert.Mlp.SX.Idx → EReal) (hlast : ∀ h3 : 3 < cfg0.N, outsAt m c 3 h3 = Gc)
    (t : Fin cfg0.N) (hf : (cfg0.win 25).flush t = true) :
    (dats m 0 c).flushed 25 t = ((cfg0.win 25).blk t).view.read (Elt Ideal) Gc := by
  have hN : cfg0.N = 4 := N_0
  have h3 : t.val = 3 := by have := (flush0_25 t).mp hf; have := t.isLt; omega
  obtain rfl : t = t0_3 := Fin.ext h3
  show (cfg0.win 25).cut (grid0.coords t0_3) ((dats m 0 c).after 25 t0_3) = _
  rw [after_25, show outsAt m c t0_3.val t0_3.isLt = Gc from hlast _]
  have hz' : (fun a => win0_25.index t0_3 a * main_v0.ty.shape.size a) = fun _ => 0 :=
    funext fun a => by fin_cases a <;> decide +kernel
  exact (Memref.read_access_unit_zero (Elt Ideal) main_v0 hz' (fun a => by rw [congrFun hz' a]; simp) Gc).symm

/-- The output array ends holding what the output block held after the last point: that point's block covers it. -/
theorem final_out (c : Dev nD) (Gc : Cert.Mlp.SX.Idx → EReal) (hlast : ∀ h3 : 3 < cfg0.N, outsAt m c 3 h3 = Gc) :
    (dats m 0 c).arrAt 25 cfg0.N = Gc :=
  (dats m 0 c).arrAt_eq_of_cover 25 Gc (flushed25_eq m c Gc hlast) fun i =>
    ⟨t0_3, (flush0_25 t0_3).mpr rfl, by
      show i ∈ ((View.whole main_v0).slice (win0_25.rect t0_3)).set
      rw [View.set_slice_whole, Rect.mem_set_unit]
      intro a
      have h0 : (i 0 : Nat) < 32 := (i 0).isLt
      have h1 : (i 1 : Nat) < 2048 := (i 1).isLt
      match a with
      | ⟨0, _⟩ =>
        show win0_25.index t0_3 0 * win0_25.size 0 ≤ (i 0 : Nat)
          ∧ (i 0 : Nat) < win0_25.index t0_3 0 * win0_25.size 0 + win0_25.xsize (grid0.coords t0_3) 0
        rw [show win0_25.index t0_3 0 * win0_25.size 0 = 0 from by decide +kernel,
          show win0_25.xsize (grid0.coords t0_3) 0 = 32 from by decide +kernel]
        omega
      | ⟨1, _⟩ =>
        show win0_25.index t0_3 1 * win0_25.size 1 ≤ (i 1 : Nat)
          ∧ (i 1 : Nat) < win0_25.index t0_3 1 * win0_25.size 1 + win0_25.xsize (grid0.coords t0_3) 1
        rw [show win0_25.index t0_3 1 * win0_25.size 1 = 0 from by decide +kernel,
          show win0_25.xsize (grid0.coords t0_3) 1 = 2048 from by decide +kernel]
        omega⟩

/-! ## The input arrays -/

/-- Every window but the last is an input. -/
theorem isOut_false : ∀ w : Fin cfg0.W, w ≠ 25 → (cfg0.win w).isOut = false := by decide +kernel

/-- An input window's array ends as the region found it. -/
theorem final_in (c : Dev nD) (w : Fin cfg0.W) (hw : w ≠ 25) :
    (dats m 0 c).arrAt w cfg0.N = V m c (Pipeline.arrRef spec0 w) :=
  ((dats m 0 c).arrAt_in w (isOut_false w hw) cfg0.N).trans (A_eq m c w)

/-- x ends as launched. -/
theorem final_arg0 (c : Dev nD) : (dats m 0 c).arrAt 0 cfg0.N = V m c main_arg0 := final_in m c 0 (by decide)
/-- W_gate ends as launched. -/
theorem final_arg1 (c : Dev nD) : (dats m 0 c).arrAt 1 cfg0.N = V m c main_arg1 := final_in m c 1 (by decide)
/-- W_up ends as launched. -/
theorem final_arg2 (c : Dev nD) : (dats m 0 c).arrAt 9 cfg0.N = V m c main_arg2 := final_in m c 9 (by decide)
/-- W_down ends as launched. -/
theorem final_arg3 (c : Dev nD) : (dats m 0 c).arrAt 17 cfg0.N = V m c main_arg3 := final_in m c 17 (by decide)

end Cert.KernelIdeal.Hand

end
-- ==== Proof.RefValue.lean ====
/-
  The reference program's result is the plain arrangement of the specification: stage by stage, the two
  projections are the sums `proj`, the quotient 1 / (1 + e^(-g)) is the logistic function of g, the two
  products give `act`, and the last projection is the sum `Gat`.
-/
import proofs.«128006_g77111842832762_cont_sun_m_58_34_alg».proof.Proof.Gen.ReferenceIdeal.Read
import proofs.«128006_g77111842832762_cont_sun_m_58_34_alg».proof.Proof.Spec

noncomputable section

open scoped BigOperators

namespace Cert.Mlp.RefValue

open Idealize.ShloMosaic Idealize.ShloMosaic.ValueIdx Cert.ReferenceIdeal Cert.ReferenceIdeal.Read Cert.Mlp

/-- The pattern 0x3F800000 denotes the number one. -/
theorem ofBits_one : Ideal.ofBits .f32 0x3F800000#32 = 1 := by
  simp [Ideal.ofBits, Ideal.ieee, -EReal.coe_mul]; norm_num

/-! ## The index maps of the three projections, at an index given by its coordinates -/

theorem lidx_v0 (p : Fin 32) (n k : Fin 2048) : lidx_main_v0 (ix2 p n) k = ix2 p k := by
  funext a; match a with | ⟨0, _⟩ => rfl | ⟨1, _⟩ => rfl
theorem ridx_v0 (p : Fin 32) (n k : Fin 2048) : ridx_main_v0 (ix2 p n) k = ix2 k n := by
  funext a; match a with | ⟨0, _⟩ => rfl | ⟨1, _⟩ => rfl
theorem lidx_v1 (p : Fin 32) (n k : Fin 2048) : lidx_main_v1 (ix2 p n) k = ix2 p k := by
  funext a; match a with | ⟨0, _⟩ => rfl | ⟨1, _⟩ => rfl
theorem ridx_v1 (p : Fin 32) (n k : Fin 2048) : ridx_main_v1 (ix2 p n) k = ix2 k n := by
  funext a; match a with | ⟨0, _⟩ => rfl | ⟨1, _⟩ => rfl
theorem lidx_v10 (p : Fin 32) (n k : Fin 2048) : lidx_main_v10 (ix2 p n) k = ix2 p k := by
  funext a; match a with | ⟨0, _⟩ => rfl | ⟨1, _⟩ => rfl
theorem ridx_v10 (p : Fin 32) (n k : Fin 2048) : ridx_main_v10 (ix2 p n) k = ix2 k n := by
  funext a; match a with | ⟨0, _⟩ => rfl | ⟨1, _⟩ => rfl

/-! ## The stages -/

/-- gate = x · W_gate. -/
theorem v0_eq (x : SX.Idx → EReal) (wg : SW.Idx → EReal) (p : Fin 32) (n : Fin 2048) :
    val_main_v0 (F := Ideal) x wg (ix2 p n) = proj x wg p n := by
  rw [val_main_v0_apply]
  exact Finset.sum_congr rfl fun k _ => by rw [lidx_v0, ridx_v0]

/-- up = x · W_up. -/
theorem v1_eq (x : SX.Idx → EReal) (wu : SW.Idx → EReal) (p : Fin 32) (n : Fin 2048) :
    val_main_v1 (F := Ideal) x wu (ix2 p n) = proj x wu p n := by
  rw [val_main_v1_apply]
  exact Finset.sum_congr rfl fun k _ => by rw [lidx_v1, ridx_v1]

/-- 1 / (1 + e^(-gate)) is the logistic function of gate. -/
theorem v7_eq (x : SX.Idx → EReal) (wg : SW.Idx → EReal) (p : Fin 32) (n : Fin 2048) :
    val_main_v7 (F := Ideal) x wg (ix2 p n) = Ideal.logistic (proj x wg p n) := by
  rw [val_main_v7_apply, val_main_v6_apply, val_main_cst_0_apply, val_main_v5_apply, val_main_v4_apply,
    val_main_cst_apply, val_main_v3_apply, val_main_v2_apply, v0_eq]
  simp only [Ideal.ofBits_def, Ideal.hostDivf_def, Ideal.addf_def, Ideal.hostUnary_exp_def, Ideal.hostNegf_def,
    Ideal.negf_def, ofBits_one]
  rfl

/-- The product gate · σ(gate) · up. -/
theorem v9_eq (x : SX.Idx → EReal) (wg wu : SW.Idx → EReal) (p : Fin 32) (n : Fin 2048) :
    val_main_v9 (F := Ideal) x wg wu (ix2 p n) = act x wg wu p n := by
  rw [val_main_v9_apply, val_main_v8_apply, v0_eq, v7_eq, v1_eq]
  rfl

/-- The reference's result is the plain arrangement. -/
theorem ref_is_spec (x : (⟨S32x2048, .f32⟩ : BufTy).Contents (Elt Ideal))
    (wg wu wd : (⟨S2048x2048, .f32⟩ : BufTy).Contents (Elt Ideal)) :
    val_main_v10 (F := Ideal) x wg wu wd = G x wg wu wd := by
  funext i
  obtain ⟨p, h, rfl⟩ : ∃ (p : Fin 32) (h : Fin 2048), i = ix2 p h := ⟨i 0, i 1, eq_ix2 i⟩
  rw [G_ix2, val_main_v10_apply]
  exact Finset.sum_congr rfl fun n _ => by rw [lidx_v10, ridx_v10, v9_eq]

end Cert.Mlp.RefValue

end
-- ==== Proof.RefRun.lean ====
/-
  The reference program's run, read as the specification: every weakly fair execution terminates with the result
  array at the plain arrangement `G` of the four argument arrays as launched, the arguments unchanged. The run's
  composed term is the last stage of the stage-by-stage reading, which is `G`.
-/
import proofs.«128006_g77111842832762_cont_sun_m_58_34_alg».proof.Proof.RefValue

noncomputable section

namespace Cert.Mlp.RefValue

open Cert.ReferenceIdeal Cert.ReferenceIdeal.Gen Idealize.ShloMosaic Idealize.ShloMosaic.TcCoe Idealize.SL.Sem
  Idealize.ShloMosaic.StableHlo

/-- On every device, from any memory with zero counters: the result is `G` of the launched arguments, which stay. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
          = Cert.Mlp.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v10_eq (F := Ideal) _ _ _ _).trans (ref_is_spec _ _ _ _)), (h c).2⟩)
    (Cert.ReferenceIdeal.Value.run (F := Ideal) m ρ)

end Cert.Mlp.RefValue

end
-- ==== Proof.lean ====
/-
  The certificate of a SwiGLU feed-forward kernel against its plain jnp reference, over the extended reals:

      out = (g · σ(g) · u) · W_down,   g = x · W_gate,   u = x · W_up,   σ(g) = 1 / (1 + e^(-g)).

  The kernel walks the 2048 intermediate columns in four runs of 512 (one per grid point). At each point it forms the
  run's columns of g and u from eight row-slabs of W_gate and W_up (256 rows each, every slab a separate window on the
  same array), applies σ and the two products, multiplies by the run's rows of W_down (eight slabs of 64 rows) and adds
  the result into the output block, which stays in its staging buffer and is written back once, after the last point.
  The reference computes the three products whole. The two differ only by how finite sums are grouped, and addition on
  the extended reals is commutative and associative, so no finiteness of the inputs is used; the kernel's
  `tpu.logistic` and the reference's `1 / (1 + exp(-g))` are one function there by definition.

  frame (kernel, word level and ideal): the pipeline's run, by hand — the three weight matrices are each read through
    eight windows, each holding an eighth of the array's share; the input arrays are never written.
  frame (reference): its straight-line run. preserves: the idealization rewrote nothing.
  algebraic: the kernel's result array after the last write-back is the specification `Cert.Mlp.G` of the argument
    arrays (the running output block is the sum of the points' contributions; each contribution, read at an index, is the
    blocked sum; the blocked sums regroup to the plain one), and so is the reference's result.
-/
import proofs.«128006_g77111842832762_cont_sun_m_58_34_alg».proof.Defs
import proofs.«128006_g77111842832762_cont_sun_m_58_34_alg».proof.Proof.Gen.Kernel
import proofs.«128006_g77111842832762_cont_sun_m_58_34_alg».proof.Proof.Gen.KernelIdeal
import proofs.«128006_g77111842832762_cont_sun_m_58_34_alg».proof.Proof.Gen.ReferenceIdeal
import proofs.«128006_g77111842832762_cont_sun_m_58_34_alg».proof.Proof.Gen.ReferenceIdeal.Run
import proofs.«128006_g77111842832762_cont_sun_m_58_34_alg».proof.Proof.Gen.ReferenceIdeal.Read
import proofs.«128006_g77111842832762_cont_sun_m_58_34_alg».proof.Proof.Gen.Pre_finite_inputs
import proofs.«128006_g77111842832762_cont_sun_m_58_34_alg».proof.Proof.KFrameRun
import proofs.«128006_g77111842832762_cont_sun_m_58_34_alg».proof.Proof.FrameRun
import proofs.«128006_g77111842832762_cont_sun_m_58_34_alg».proof.Proof.OutStep
import proofs.«128006_g77111842832762_cont_sun_m_58_34_alg».proof.Proof.LastPoint
import proofs.«128006_g77111842832762_cont_sun_m_58_34_alg».proof.Proof.FinalArrays
import proofs.«128006_g77111842832762_cont_sun_m_58_34_alg».proof.Proof.RefRun

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of the (agreeing) argument arrays in their result arrays. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_⟩) (Cert.KernelIdeal.Hand.run_main (F := Ideal) m ρ)
    · exact (h c 25).trans (Cert.KernelIdeal.Hand.final_out m c _ fun h3 =>
        Cert.KernelIdeal.Hand.last_of_steps m c (Cert.KernelIdeal.Hand.outsAt m c)
          (Cert.KernelIdeal.Hand.outsAt_zero m c) (Cert.KernelIdeal.Hand.outsAt_succ m c) h3)
    · exact ⟨(h c 0).trans (Cert.KernelIdeal.Hand.final_arg0 m c), (h c 1).trans (Cert.KernelIdeal.Hand.final_arg1 m c),
        (h c 9).trans (Cert.KernelIdeal.Hand.final_arg2 m c), (h c 17).trans (Cert.KernelIdeal.Hand.final_arg3 m c)⟩
  · refine (θ_run Cert.ReferenceIdeal.defs _ _).mono (fun r h c => ⟨?_, (h c).2⟩) (Cert.Mlp.RefValue.ref_run m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
